-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : IVec S2x262144 32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S8192x8192 : Shape := ⟨2, ![8192, 8192]⟩
abbrev S270336x1 : Shape := ⟨2, ![270336, 1]⟩
abbrev S270336x2 : Shape := ⟨2, ![270336, 2]⟩
abbrev S8192x1 : Shape := ⟨2, ![8192, 1]⟩
abbrev S1024x512 : Shape := ⟨2, ![1024, 512]⟩
abbrev S1024x1 : Shape := ⟨2, ![1024, 1]⟩
abbrev S1x512 : Shape := ⟨2, ![1, 512]⟩
abbrev S1024x2048 : Shape := ⟨2, ![1024, 2048]⟩
abbrev S2048x512 : Shape := ⟨2, ![2048, 512]⟩

abbrev nBuf : Space → Nat
  | .hbm => 51
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S8192, .i32⟩
  | .hbm, ⟨5, _⟩ => ⟨S1x262144, .i32⟩
  | .hbm, ⟨6, _⟩ => ⟨S262144, .i32⟩
  | .hbm, ⟨7, _⟩ => ⟨S270336, .i32⟩
  | .hbm, ⟨8, _⟩ => ⟨S1x262144, .i32⟩
  | .hbm, ⟨9, _⟩ => ⟨S262144, .i32⟩
  | .hbm, ⟨10, _⟩ => ⟨S270336, .i32⟩
  | .hbm, ⟨11, _⟩ => ⟨S_, .bf16⟩
  | .hbm, ⟨12, _⟩ => ⟨S8192x8192, .bf16⟩
  | .hbm, ⟨13, _⟩ => ⟨S_, .i32⟩
  | .hbm, ⟨14, _⟩ => ⟨S270336, .i32⟩
  | .hbm, ⟨15, _⟩ => ⟨S270336, .i1⟩
  | .hbm, ⟨16, _⟩ => ⟨S_, .i32⟩
  | .hbm, ⟨17, _⟩ => ⟨S270336, .i32⟩
  | .hbm, ⟨18, _⟩ => ⟨S270336, .i32⟩
  | .hbm, ⟨19, _⟩ => ⟨S270336, .i32⟩
  | .hbm, ⟨20, _⟩ => ⟨S_, .i32⟩
  | .hbm, ⟨21, _⟩ => ⟨S270336, .i32⟩
  | .hbm, ⟨22, _⟩ => ⟨S270336, .i1⟩
  | .hbm, ⟨23, _⟩ => ⟨S_, .i32⟩
  | .hbm, ⟨24, _⟩ => ⟨S270336, .i32⟩
  | .hbm, ⟨25, _⟩ => ⟨S270336, .i32⟩
  | .hbm, ⟨26, _⟩ => ⟨S270336, .i32⟩
  | .hbm, ⟨27, _⟩ => ⟨S270336x1, .i32⟩
  | .hbm, ⟨28, _⟩ => ⟨S270336x1, .i32⟩
  | .hbm, ⟨29, _⟩ => ⟨S270336x2, .i32⟩
  | .hbm, ⟨30, _⟩ => ⟨S_, .bf16⟩
  | .hbm, ⟨31, _⟩ => ⟨S270336, .bf16⟩
  | .hbm, ⟨32, _⟩ => ⟨S8192x8192, .bf16⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x512, .bf16⟩
  | .hbm, ⟨49, _⟩ => ⟨S8192x1, .f32⟩
  | .hbm, ⟨50, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S1024x1, .f32⟩
  | .local _ .vmem, ⟨5, _⟩ => ⟨S1024x1, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1, .f32⟩
  | .local _ .vmem, ⟨11, _⟩ => ⟨S1024x1, .f32⟩
  | .local _ .vmem, ⟨12, _⟩ => ⟨S8192x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  bitsLt_bf16_f32 : FTy.bits .bf16 < FTy.bits .f32
  reducesTo_S8192x8192_S8192_d1 : S8192x8192.ReducesTo [1] S8192
  h_S_ : 0 < S_.numel
  bcast_S_S8192 : S_.BroadcastsInDim S8192 (![] : Fin 0 → Fin S8192.rank)
  shapeCasts_S8192_S8192x1 : S8192.ShapeCasts S8192x1
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  h_S2048x512 : 0 < S2048x512.numel
  shapeCasts_S2048x512_S2048x512 : S2048x512.ShapeCasts S2048x512
  scatter_S8192x8192_S270336x2_S270336_n_01_01_1_wf : ScatterDims.WF S8192x8192 S270336x2 S270336 [] [0, 1] [0, 1] 1
  dot_S1024x512_S512x512_S1024x512_1_0_0_1_n_n_wf : DotDims.WF S1024x512 S512x512 S1024x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S8192x8192 : Shape := ⟨2, ![8192, 8192]⟩
abbrev S270336x1 : Shape := ⟨2, ![270336, 1]⟩
abbrev S270336x2 : Shape := ⟨2, ![270336, 2]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S8192, .i32⟩
  | .hbm, ⟨5, _⟩ => ⟨S1x262144, .i32⟩
  | .hbm, ⟨6, _⟩ => ⟨S262144, .i32⟩
  | .hbm, ⟨7, _⟩ => ⟨S270336, .i32⟩
  | .hbm, ⟨8, _⟩ => ⟨S1x262144, .i32⟩
  | .hbm, ⟨9, _⟩ => ⟨S262144, .i32⟩
  | .hbm, ⟨10, _⟩ => ⟨S270336, .i32⟩
  | .hbm, ⟨11, _⟩ => ⟨S_, .f32⟩
  | .hbm, ⟨12, _⟩ => ⟨S8192x8192, .f32⟩
  | .hbm, ⟨13, _⟩ => ⟨S_, .i32⟩
  | .hbm, ⟨14, _⟩ => ⟨S270336, .i32⟩
  | .hbm, ⟨15, _⟩ => ⟨S270336, .i1⟩
  | .hbm, ⟨16, _⟩ => ⟨S_, .i32⟩
  | .hbm, ⟨17, _⟩ => ⟨S270336, .i32⟩
  | .hbm, ⟨18, _⟩ => ⟨S270336, .i32⟩
  | .hbm, ⟨19, _⟩ => ⟨S270336, .i32⟩
  | .hbm, ⟨20, _⟩ => ⟨S_, .i32⟩
  | .hbm, ⟨21, _⟩ => ⟨S270336, .i32⟩
  | .hbm, ⟨22, _⟩ => ⟨S270336, .i1⟩
  | .hbm, ⟨23, _⟩ => ⟨S_, .i32⟩
  | .hbm, ⟨24, _⟩ => ⟨S270336, .i32⟩
  | .hbm, ⟨25, _⟩ => ⟨S270336, .i32⟩
  | .hbm, ⟨26, _⟩ => ⟨S270336, .i32⟩
  | .hbm, ⟨27, _⟩ => ⟨S270336x1, .i32⟩
  | .hbm, ⟨28, _⟩ => ⟨S270336x1, .i32⟩
  | .hbm, ⟨29, _⟩ => ⟨S270336x2, .i32⟩
  | .hbm, ⟨30, _⟩ => ⟨S_, .f32⟩
  | .hbm, ⟨31, _⟩ => ⟨S270336, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .i1⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S512x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  scatter_S8192x8192_S270336x2_S270336_n_01_01_1_wf : ScatterDims.WF S8192x8192 S270336x2 S270336 [] [0, 1] [0, 1] 1
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Region0.lean ====
import proofs.«173548_j19645180412416_2_alg».proof.Proof.Gen.KernelIdeal.Launch
import proofs.«173548_j19645180412416_2_alg».proof.Proof.Gen.KernelIdeal.Skeleton
import proofs.«173548_j19645180412416_2_alg».proof.Proof.Gen.KernelIdeal.Points
import Idealize.ShloMosaic.Lib.Pipeline.FrameBody
import Idealize.ShloMosaic.Lib.Ring
import Idealize.ShloMosaic.Lib.Tactic

/-! # The linear layer's body, at one block of node rows

The first call of the graph-convolution layer walks the 8192 node rows in eight blocks of 1024. At a
block it reads four things — the block of the features `x` (1024 × 512), the whole weight matrix `W`
(512 × 512), the bias `b` (512 entries) and the block of the degree scaling `dinv` (1024 × 1) — and
overwrites the whole 1024 × 512 block of the result with

    h[r, j] = ((∑ k, x[r, k] · W[j, k]) + b[j]) · dinv[r] .

Here that is said once for any contents the arrays may have when the call is entered: what each of the
five windows' buffers holds after the body as a function of the four blocks read (`out0_4`, whose
one piece is the arithmetic `k0_pay1` of the blocks read whole), the body's triple (`sound_kernel0`),
and the bookkeeping the schedule of fetches and write-backs asks for (`dat0`, `body_obligation0`).
Nothing here depends on the float instance: a block is read, combined and written whole. -/

-- a rectangle of 1024 × 512 entries: membership is looked up once per coordinate of the long axes
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the call is entered: everything below is a function of them
variable (V : (c : Dev nD) → (b : Ref sig .tc) → Buf (Elt F) ((c : Thread nD τ).loc b))

/-! ## The blocks -/

/-- Window `w`'s block at point `t`: the rows `1024 t … 1024 t + 1023` of `x`, of `dinv` and of the result
    (windows 0, 3, 4), all of `W` and of `b` (windows 1, 2), read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the body is handed for the block of `x` holds that block at every point — fetched at that point, and
    nothing but the fetch writes it — for any bookkeeping over these arrays (`hA`) whose body leaves the block
    in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer for `W` holds all of `W` at every point: fetched at the first, and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The buffer for `b` holds all of `b` at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The buffer for the block of `dinv` holds that block at every point (fetched at each). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body touches: each buffer whole -/

/-- All of a 1024 × 512 buffer (the block of `x`; the block of the result), -/
abbrev rRows : Rect S1024x512 := Rect.unit (s := S1024x512) ![0, 0] S1024x512.size inb_S1024x512_S1024x512_0_0
/-- all of `W`, -/
abbrev rW : Rect S512x512 := Rect.unit (s := S512x512) ![0, 0] S512x512.size inb_S512x512_S512x512_0_0
/-- all of `b`, -/
abbrev rBias : Rect S512 := Rect.unit (s := S512) ![0] S512.size inb_S512_S512_0
/-- all of the block of `dinv`. -/
abbrev rDinv : Rect S1024x1 := Rect.unit (s := S1024x1) ![0, 0] S1024x1.size inb_S1024x1_S1024x1_0_0

/-! ## What the body leaves in the result's buffer -/

/-- The result's buffer after the body, from the four blocks read: ONE piece, the whole buffer, at
    `((x · Wᵀ) + b) · dinv` of the blocks (`k0_pay1`), whatever the buffer held before. -/
def out0_4 (x0 : Vec F S1024x512 .f32) (x1 : Vec F S512x512 .f32) (x2 : Vec F S512 .f32) (x3 : Vec F S1024x1 .f32) : Vec F S1024x512 .bf16 :=
  View.canon [⟨rRows, k0_pay1 (View.ld x0 rRows) (View.ld x1 rW) (View.ld x2 rBias) (View.ld x3 rDinv)⟩]

/-- That piece is the whole buffer, so every entry is written. -/
theorem cover0_4 (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

/-! ## The body's triple -/

set_option maxHeartbeats 1000000 in
/-- The body on whole buffers — the four inputs' at contents `x0 … x3`, the result's at anything — runs to the
    continuation with the inputs' as they were and the result's at `out0_4` of them: four whole loads, a load of
    the result's buffer whose value is not used, and one whole store. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S1024x1 .f32) (harg4 : arg4.IsWhole)
    (arg5 : Memref sig .tc .vmem S1024x512 .bf16) (harg5 : arg5.IsWhole)
    (x0 : Vec F S1024x512 .f32) (x1 : Vec F S512x512 .f32) (x2 : Vec F S512 .f32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The bookkeeping of the call -/

/-- On core `c`: the arrays as the call finds them (`V`); after the body at point `t` each input's buffer still at
    its block and the result's at `out0_4` of the four blocks; the rest of the core's scoped memory and the
    generator register untouched throughout; nothing owed; every buffer held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- What the body finds in each input's buffer: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body at a generic point -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the rest of the core's
    state passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the schedule asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1Runs.lean ====
/-
  The aggregation kernel (the second pallas_call: grid 8 x 4, an f32 accumulator in scratch memory carried along the
  inner axis k): what its per-case runs are stated over. A grid point is (row block i, column block k). The body
  zeroes the accumulator when k = 0, adds the product of the adjacency tile with rows 2048k .. 2048k + 2047 of the
  scaled features at every k, and when k = 3 stores the accumulator times the row normaliser into the output block.
  Three cases therefore: k = 0 (first), k = 1 or 2 (middle), k = 3 (last). The output window's block index does not
  depend on k and the window is idle (neither stored nor written back) unless k = 3.
-/
import proofs.«173548_j19645180412416_2_alg».proof.Proof.Gen.KernelIdeal.Launch
import proofs.«173548_j19645180412416_2_alg».proof.Proof.Gen.KernelIdeal.Skeleton
import proofs.«173548_j19645180412416_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- `V c b`: the contents of core `c`'s buffer `b` when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile: input window 0's staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row normaliser's block (window 1, re-fetched only when the row block moves) likewise. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The scaled features, resident whole (window 2, fetched once) likewise. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "k = 0": the accumulator is zeroed. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

/-- "k = 3": the output block is stored. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Unless k = 3 the output window is idle and its block is not written back. -/
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
theorem liveAt_3 : ∀ t : Fin cfg1.N, condLast (grid1.coords t) → cfg1.idle 3 (grid1.coords t) = false := by decide +kernel

/-! ## The memrefs the body is called with -/

/-- One staging buffer of the output window, through which its contents are stated. -/
abbrev VO : View sig .tc .vmem S1024x512 .f32 := (Memref.whole cc1_stg3_0 : Memref sig .tc .vmem S1024x512 .f32).view
abbrev ms_0 (t : Fin cfg1.N) : Memref sig .tc .vmem S1024x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x1 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8192x512 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x512 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev accM : Memref sig .tc .vmem S1024x512 .f32 := Memref.whole cc1_scratch0
abbrev VS : View sig .tc .vmem S1024x512 .f32 := accM.view

/-- The scoped buffers no window stages, with the accumulator singled out as a memref owned at some contents. -/
theorem scopedRest_acc (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) accM fullShare d)) := by
  rw [scopedRest1_eq]; simp only [accM, owns_whole]; try rfl

end Cert.KernelIdeal.R1

end
-- ==== Proof.Region1RunFirst.lean ====
/-
  The aggregation kernel's body at a point with k = 0, run on any whole staging memrefs: the three inputs at their
  contents, the output buffer (idle here) at contents handed back untouched, the accumulator at anything. It ends with
  the inputs and the output buffer as they were and the accumulator overwritten whole, twice: first with zeros, then
  with zeros plus the first partial product. The list of pieces written (last first) is what the run finds.
-/
import proofs.«173548_j19645180412416_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : condFirst i) (hc1 : ¬condLast i)
    (x0 : Vec F S1024x2048 .bf16) (x1 : Vec F S1024x1 .f32) (x2 : Vec F S8192x512 .bf16) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R1

end
-- ==== Proof.Region1RunMid.lean ====
/-
  The aggregation kernel's body at a point with k = 1 or 2, run on any whole staging memrefs: the three inputs at
  their contents, the output buffer (idle here) at contents handed back untouched, the accumulator at what the point
  before left. It ends with the accumulator overwritten whole with its old contents plus this column block's partial
  product. The list of pieces written is what the run finds.
-/
import proofs.«173548_j19645180412416_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : ¬condFirst i) (hc1 : ¬condLast i)
    (x0 : Vec F S1024x2048 .bf16) (x1 : Vec F S1024x1 .f32) (x2 : Vec F S8192x512 .bf16) (xs : Vec F S1024x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.R1

end
-- ==== Proof.Region1RunLast.lean ====
/-
  The aggregation kernel's body at a point with k = 3, run on any whole staging memrefs: the three inputs at their
  contents, the output buffer at anything, the accumulator at what the point before left. It ends with the accumulator
  overwritten whole with its old contents plus the last partial product, and the output buffer overwritten whole with
  that total times the row normaliser broadcast along the channels. The two lists of pieces written are what the
  run finds.
-/
import proofs.«173548_j19645180412416_2_alg».proof.Proof.Region1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : ¬condFirst i) (hc1 : condLast i)
    (x0 : Vec F S1024x2048 .bf16) (x1 : Vec F S1024x1 .f32) (x2 : Vec F S8192x512 .bf16) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.R1

end
-- ==== Proof.Region1.lean ====
/-
  The aggregation kernel (second pallas_call) as a region of the program: what its output buffer and its accumulator hold
  after the body at each grid position, the invariant that carries the accumulator from one position to the next, the
  pipeline's proof data, and the body obligation at every point.
  A position n = 4 i + k is the point (row block i, column block k). After position n the accumulator holds
    k = 0 :  the zero word's value, then + the product of the adjacency tile (i, 0) with rows 0 .. 2047 of the features;
    k > 0 :  what position n - 1 left + the product of tile (i, k) with rows 2048 k .. 2048 k + 2047;
  and at k = 3 the output buffer holds that total times the row normaliser. The invariant before position n + 1 is the
  region's scoped buffers with the accumulator at exactly that value; before position 0 the accumulator holds anything.
-/
import proofs.«173548_j19645180412416_2_alg».proof.Proof.Region1RunFirst
import proofs.«173548_j19645180412416_2_alg».proof.Proof.Region1RunMid
import proofs.«173548_j19645180412416_2_alg».proof.Proof.Region1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The whole-buffer rectangle every store of the body writes through. -/
abbrev rAll : Rect S1024x512 := Rect.unit (s := S1024x512) ![0, 0] S1024x512.size inb_S1024x512_S1024x512_0_0

/-- Every index of a [1024, 512] buffer lies in the whole-buffer rectangle. -/
theorem mem_rAll (p0 : rAll.shape.Idx → Elt F .f32) (y : S1024x512.Idx) : y ∈ rAll.set := by
  obtain ⟨pc, hpc, hy⟩ := View.cover_of_tiled ([⟨rAll, p0⟩] : List (View.Piece (Elt F) S1024x512 .f32)) S1024x512.size (by rfl) y
  rw [List.mem_singleton] at hpc; subst hpc; exact hy

/-- The output buffer's placeholder at a position where the window is idle (nothing stored, nothing written back, nothing read). -/
def idleOut : Vec F S1024x512 .f32 := VO.read (Elt F) (VO.writes (Elt F) VO.junk [])

/-- k = 0: the accumulator after the body. -/
def accFirst (c : Dev nD) (t : Fin cfg1.N) (h0 : t.val % 4 = 0) : Vec F S1024x512 .f32 :=
  have h3 : ¬t.val % 4 = 3 := by omega
  VS.read (Elt F) (VS.writes (Elt F) VS.junk (runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.1)

/-- k = 1, 2: the accumulator after the body, from what the position before left (`xs`). -/
def accMid (c : Dev nD) (t : Fin cfg1.N) (h0 : ¬t.val % 4 = 0) (h3 : ¬t.val % 4 = 3) (xs : Vec F S1024x512 .f32) : Vec F S1024x512 .f32 :=
  VS.read (Elt F) (VS.writes (Elt F) VS.junk (runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) xs).2.1)

/-- k = 3: the accumulator and the output buffer after the body. -/
def accLast (c : Dev nD) (t : Fin cfg1.N) (h0 : ¬t.val % 4 = 0) (h3 : t.val % 4 = 3) (xs : Vec F S1024x512 .f32) : Vec F S1024x512 .f32 :=
  VS.read (Elt F) (VS.writes (Elt F) VS.junk (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).2.1)
def outLast (c : Dev nD) (t : Fin cfg1.N) (h0 : ¬t.val % 4 = 0) (h3 : t.val % 4 = 3) (xs : Vec F S1024x512 .f32) : Vec F S1024x512 .f32 :=
  VO.read (Elt F) (VO.writes (Elt F) VO.junk (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).1)

/-- The pieces each case writes into the accumulator cover it: the last store is of the whole buffer. -/
theorem scoverFirst (c : Dev nD) (t : Fin cfg1.N) (h0 : t.val % 4 = 0) (y : S1024x512.Idx) :
    ∃ pc ∈ (runFirst (F := F) c (grid1.coords t) (ms_0 t) (hs_0 t) (ms_1 t) (hs_1 t) (ms_2 t) (hs_2 t) (ms_3 t) (hs_3 t) accM (Memref.isWhole_whole _) ((hcondFirst t).mpr h0) (fun h => by have := (hcondLast t).mp h; omega) (iblk V c 0 t) (iblk V c 1 t) (iblk V c 2 t)).2.1, y ∈ pc.1.set := by
  refine ⟨_, List.mem_cons_self .., ?_⟩
  exact mem_rAll (F := F) (k1_pay1 (F := F)) y
theorem scoverMid (c : Dev nD) (t : Fin cfg1.N) (h0 : ¬t.val % 4 = 0) (h3 : ¬t.val % 4 = 3) (xs : Vec F S1024x512 .f32) (y : S1024x512.Idx) :
    ∃ pc ∈ (runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) xs).2.1, y ∈ pc.1.set := by
  refine ⟨_, List.mem_cons_self .., ?_⟩
  exact mem_rAll (F := F) (k1_pay1 (F := F)) y
theorem scoverLast (c : Dev nD) (t : Fin cfg1.N) (h0 : ¬t.val % 4 = 0) (h3 : t.val % 4 = 3) (xs : Vec F S1024x512 .f32) (y : S1024x512.Idx) :
    ∃ pc ∈ (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).2.1, y ∈ pc.1.set := by
  refine ⟨_, List.mem_cons_self .., ?_⟩
  exact mem_rAll (F := F) (k1_pay1 (F := F)) y
theorem coverLast (c : Dev nD) (t : Fin cfg1.N) (h0 : ¬t.val % 4 = 0) (h3 : t.val % 4 = 3) (xs : Vec F S1024x512 .f32) (y : S1024x512.Idx) :
    ∃ pc ∈ (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).1, y ∈ pc.1.set := by
  refine ⟨_, List.mem_cons_self .., ?_⟩
  exact mem_rAll (F := F) (k1_pay1 (F := F)) y

/-! ## What the output buffer and the accumulator hold after each position -/

/-- THE ACCUMULATION, by recursion on the position: (output buffer, accumulator). -/
def outsAt (c : Dev nD) : (n : ℕ) → n < cfg1.N → Vec F S1024x512 .f32 × Vec F S1024x512 .f32
  | 0, hn => (idleOut, accFirst V c ⟨0, hn⟩ (Nat.zero_mod _))
  | n + 1, hn =>
    if h0 : (n + 1) % 4 = 0 then (idleOut, accFirst V c ⟨n + 1, hn⟩ h0)
    else if h3 : (n + 1) % 4 = 3 then
      (outLast V c ⟨n + 1, hn⟩ h0 h3 (outsAt c n (Nat.lt_of_succ_lt hn)).2, accLast V c ⟨n + 1, hn⟩ h0 h3 (outsAt c n (Nat.lt_of_succ_lt hn)).2)
    else (idleOut, accMid V c ⟨n + 1, hn⟩ h0 h3 (outsAt c n (Nat.lt_of_succ_lt hn)).2)

theorem outsAt_first (c : Dev nD) (t : Fin cfg1.N) (h0 : t.val % 4 = 0) :
    outsAt V c t.val t.isLt = (idleOut, accFirst V c t h0) := by
  obtain ⟨n, hn⟩ := t
  cases n with
  | zero => exact rfl
  | succ n => exact (dif_pos h0).trans rfl

theorem outsAt_mid (c : Dev nD) (t : Fin cfg1.N) (h0 : ¬t.val % 4 = 0) (h3 : ¬t.val % 4 = 3) :
    outsAt V c t.val t.isLt = (idleOut, accMid V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

theorem outsAt_last (c : Dev nD) (t : Fin cfg1.N) (h0 : ¬t.val % 4 = 0) (h3 : t.val % 4 = 3) :
    outsAt V c t.val t.isLt = (outLast V c t h0 h3 (outsAt V c (t.val - 1) (Nat.lt_of_le_of_lt (Nat.sub_le _ _) t.isLt)).2,
      accLast V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The invariant that carries the accumulator -/

/-- The region's scoped buffers that are not its own staging buffers — the first pallas_call's eight staging buffers at
    anything and the accumulator at `acc` — beside the core's generator register at some state. -/
def PhiWith (c : Dev nD) (acc : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ acc) ∗ (∃ r, prngReg c r))

theorem PhiA_eq (c : Dev nD) : (Pipeline.ΦA spec1 c : sProp 𝕄) = PhiWith c iprop(∃ d, owns (c : Thread nD τ) accM fullShare d) := by
  unfold Pipeline.ΦA PhiWith; rw [scopedRest_acc]

/-- Before position 0 the accumulator holds anything; before position n + 1, what position n left. -/
def PhiS (c : Dev nD) : (n : ℕ) → n ≤ cfg1.N → sProp 𝕄
  | 0, _ => Pipeline.ΦA spec1 c
  | n + 1, hn => PhiWith c (owns (c : Thread nD τ) accM fullShare (outsAt V c n hn).2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) accM fullShare (outsAt V c n hn).2) := rfl
theorem PhiS_pos (c : Dev nD) (n : ℕ) (h : n ≤ cfg1.N) (hz : n ≠ 0) :
    PhiS V c n h = PhiWith c (owns (c : Thread nD τ) accM fullShare (outsAt V c (n - 1) (by omega)).2) := by
  cases n with
  | zero => exact absurd rfl hz
  | succ n => rfl

/-! ## The pipeline's proof data -/

/-- The arrays as the region finds them; after the body each input's buffer at its block, the output's at `outsAt`'s
    first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (outsAt V c t.val t.isLt).1 := by dsimp only [dat1]

theorem before1_0 (c : Dev nD) (t : Fin cfg1.N) (d) : (dat1 V c).before 0 t d = iblk V c 0 t :=
  before_0_of V (dat1 V c) (A_eq1 V c 0) (after1_0 V c) t d
theorem before1_1 (c : Dev nD) (t : Fin cfg1.N) (d) : (dat1 V c).before 1 t d = iblk V c 1 t :=
  before_1_of V (dat1 V c) (A_eq1 V c 1) (after1_1 V c) t d
theorem before1_2 (c : Dev nD) (t : Fin cfg1.N) (d) : (dat1 V c).before 2 t d = iblk V c 2 t :=
  before_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 4 says which case it is in;
    the invariant hands the body the accumulator at what the position before left (at anything before position 0) and
    takes it back at this position's value; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms_0 t) fullShare ((dat1 V c).after 0 t) from by
    unfold Dat.leavesExact; rw [liveAt_0 t], after1_0]
  rw [show (dat1 V c).leavesExact 1 t = owns (c : Thread nD τ) (ms_1 t) fullShare ((dat1 V c).after 1 t) from by
    unfold Dat.leavesExact; rw [liveAt_1 t], after1_1]
  rw [show (dat1 V c).leavesExact 2 t = owns (c : Thread nD τ) (ms_2 t) fullShare ((dat1 V c).after 2 t) from by
    unfold Dat.leavesExact; rw [liveAt_2 t], after1_2]
  have hN : t.val < 32 := lt_of_lt_of_eq t.isLt (show cfg1.N = 32 from N_1)
  by_cases h0 : t.val % 4 = 0
  · have h3 : ¬t.val % 4 = 3 := by omega
    rw [Dat.leavesExact_idle (dat1 V c) 3 t (idleAt_3 t (fun h => h3 ((hcondLast t).mp h))) (noFlush_3 t (fun h => h3 ((hcondLast t).mp h)))]
    rw [outsAt_first V c t h0]
    unfold accFirst; (try dsimp only)
    by_cases hz : t.val = 0
    · rw [PhiS_castSucc V c t, PhiS_zero V c _ _ hz, PhiA_eq]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverFirst V c t h0)
      isplitl [Ho]; · iexact Ho
      isplitl [H0]; · iexact H0
      isplitl [H1]; · iexact H1
      isplitl [H2]; · iexact H2
      iexists _; iexact H3
    · rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverFirst V c t h0)
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (ms_3 t) fullShare ((dat1 V c).after 3 t) from by
        unfold Dat.leavesExact; rw [liveAt_3 t ((hcondLast t).mpr h3)], after1_3]
      rw [outsAt_last V c t h0 h3]
      unfold outLast accLast; (try dsimp only)
      rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverLast V c t h0 h3 _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast V c t h0 h3 _)
    · rw [Dat.leavesExact_idle (dat1 V c) 3 t (idleAt_3 t (fun h => h3 ((hcondLast t).mp h))) (noFlush_3 t (fun h => h3 ((hcondLast t).mp h)))]
      rw [outsAt_mid V c t h0 h3]
      unfold accMid; (try dsimp only)
      rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverMid V c t h0 h3 _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl,
    PhiS_pos V c _ _ hne, PhiA_eq]
  unfold PhiWith
  iintro ⟨⟨B1, B2, B3, B4, B5, B6, B7, B8, HS⟩, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexists _; iexact HS

end Cert.KernelIdeal.R1

end
-- ==== Proof.KernelRun.lean ====
import proofs.«173548_j19645180412416_2_alg».proof.Proof.Region0
import proofs.«173548_j19645180412416_2_alg».proof.Proof.Region1
import proofs.«173548_j19645180412416_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole run of the graph-convolution layer

The program is six steps in a row: three stretches of array operations on the host (the index array and the
adjacency matrix `adj` scattered from it, its row sums and `dinv`; the `where` that guards empty rows; the
reshape of `dinv` to a column), the linear layer `h = (x · Wᵀ + b) · dinv` over eight blocks of rows, one more
reshape of `dinv`, and the aggregation `out = (adj · h) · dinv` over 8 × 4 blocks.

Here the contents of every array are followed through the six steps, `W0` (as launched) to `W6` (at the
return): a host stretch rewrites the arrays its operations write, a call leaves each of its arrays at what its
write-backs leave and every other array as it was. The run is then one theorem: from any launch memory every
weakly fair execution terminates, and the final memory is `W6` at every array (`run_all`); the four arguments
are among the arrays no step writes (`W6_main_argK`), and the result is what the aggregation's write-backs
leave (`W6_result`). -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the steps -/

/-- Core `c`'s arrays at launch. -/
abbrev W0 : Dev nD → Valuation τ sig (Elt F) := fun c b => (s₀ m ρ).mem ((c : Dev nD), b)
/-- After the first host stretch: `adj`, its row sums and `rsqrt` of them are there. -/
abbrev W1 : Dev nD → Valuation τ sig (Elt F) := fun c => StableHlo.after hostOps0 (W0 m ρ c)
/-- After the `where`: `dinv` is there. -/
abbrev W2 : Dev nD → Valuation τ sig (Elt F) := fun c => StableHlo.after hostOps0_1 (W1 m ρ c)
/-- After `dinv` is reshaped to a column: what the linear layer is entered from. -/
abbrev W3 : Dev nD → Valuation τ sig (Elt F) := fun c => StableHlo.after hostOps0_2 (W2 m ρ c)
/-- The same read at the core's own references (what the linear layer's bookkeeping takes). -/
abbrev V3 : (c : Dev nD) → (b : Ref sig .tc) → Buf (Elt F) ((c : Thread nD τ).loc b) := fun c b => W3 m ρ c b
/-- After the linear layer: its five arrays at what the call leaves — the four inputs as entered, `h` at its
    write-backs folded over the eight blocks —, every other array as entered. -/
def W4 (c : Dev nD) : Valuation τ sig (Elt F) :=
  Pipeline.withArrays spec0 c (W3 m ρ c) fun w => (R0.dat0 (V3 m ρ) c).arrAt w cfg0.N
theorem W4_arr (c : Dev nD) (w : Fin cfg0.W) :
    W4 m ρ c (Proc.devRef .tc (Pipeline.arrRef spec0 w)) = (R0.dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's own references. -/
abbrev V4 : (c : Dev nD) → (b : Ref sig .tc) → Buf (Elt F) ((c : Thread nD τ).loc b) := fun c b => W4 m ρ c b
/-- At the linear layer's exit each of its arrays holds what the call leaves, and every other array what it held. -/
theorem hF0 (c : Dev nD) (w : Fin cfg0.W) : (R0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `dinv` is reshaped to a column once more: what the aggregation is entered from. -/
abbrev W5 : Dev nD → Valuation τ sig (Elt F) := fun c => StableHlo.after hostOps1 (W4 m ρ c)
/-- The same read at the core's own references (what the aggregation's bookkeeping takes). -/
abbrev V5 : (c : Dev nD) → (b : Ref sig .tc) → Buf (Elt F) ((c : Thread nD τ).loc b) := fun c b => W5 m ρ c b
/-- After the aggregation: its four arrays at what the call leaves — `adj`, `dinv` and `h` as entered, the result
    at its write-backs folded over the 8 × 4 blocks —, every other array as entered. -/
def W6 (c : Dev nD) : Valuation τ sig (Elt F) :=
  Pipeline.withArrays spec1 c (W5 m ρ c) fun w => (R1.dat1 (V5 m ρ) c).arrAt w cfg1.N
theorem W6_arr (c : Dev nD) (w : Fin cfg1.W) :
    W6 m ρ c (Proc.devRef .tc (Pipeline.arrRef spec1 w)) = (R1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's own references. -/
abbrev V6 : (c : Dev nD) → (b : Ref sig .tc) → Buf (Elt F) ((c : Thread nD τ).loc b) := fun c b => W6 m ρ c b
/-- At the aggregation's exit each of its arrays holds what the call leaves, and every other array what it held. -/
theorem hF1 (c : Dev nD) (w : Fin cfg1.W) : (R1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## Arrays a step does not write -/

/-- An array none of the first stretch's operations writes holds after it what it held before; -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- the same for the `where`, -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- the first reshape of `dinv`, -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- and the second. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- An input array of the linear layer leaves the call as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((R0.dat0 (V3 m ρ) c).arrAt_in w hw _).trans (R0.A_eq0 (V3 m ρ) c w))

/-! ### What the linear layer is entered from -/

/-- The features `x`, the weights `W` and the bias `b` are as launched: no host operation writes an argument. -/
theorem V3_main_arg0 (c : Dev nD) : V3 m ρ c main_arg0 = m ((c : Thread nD τ).loc main_arg0) :=
  (W3_of m ρ c main_arg0 (by decide)).trans <| (W2_of m ρ c main_arg0 (by decide)).trans <| (W1_of m ρ c main_arg0 (by decide)).trans rfl
theorem V3_main_arg1 (c : Dev nD) : V3 m ρ c main_arg1 = m ((c : Thread nD τ).loc main_arg1) :=
  (W3_of m ρ c main_arg1 (by decide)).trans <| (W2_of m ρ c main_arg1 (by decide)).trans <| (W1_of m ρ c main_arg1 (by decide)).trans rfl
theorem V3_main_arg2 (c : Dev nD) : V3 m ρ c main_arg2 = m ((c : Thread nD τ).loc main_arg2) :=
  (W3_of m ρ c main_arg2 (by decide)).trans <| (W2_of m ρ c main_arg2 (by decide)).trans <| (W1_of m ρ c main_arg2 (by decide)).trans rfl
theorem V3_main_arg3 (c : Dev nD) : V3 m ρ c main_arg3 = m ((c : Thread nD τ).loc main_arg3) :=
  (W3_of m ρ c main_arg3 (by decide)).trans <| (W2_of m ρ c main_arg3 (by decide)).trans <| (W1_of m ρ c main_arg3 (by decide)).trans rfl
/-- Every array there is the three host stretches applied in order to the launch contents (by definition). -/
theorem V3_eq (c : Dev nD) (b : Ref sig .tc) :
    V3 m ρ c b = StableHlo.after hostOps0_2 (StableHlo.after hostOps0_1 (StableHlo.after hostOps0 (W0 m ρ c))) (Proc.devRef .tc b) := rfl
/-- The column of `dinv` it reads is the reshape's result over the arrays after the `where`. -/
theorem V3_main_v31 (c : Dev nD) : V3 m ρ c main_v31 = StableHlo.after hostOps0_2 (W2 m ρ c) (Proc.devRef .tc main_v31) := rfl

/-! ### What the aggregation is entered from -/

/-- `h` is what the linear layer's write-backs leave: the second reshape does not write it. -/
theorem V5_main_v32 (c : Dev nD) : V5 m ρ c main_v32 = (R0.dat0 (V3 m ρ) c).arrAt 4 cfg0.N :=
  (W5_of m ρ c main_v32 (by decide)).trans (W4_arr m ρ c 4)
/-- `adj` is as the first host stretch left it: nothing after that stretch writes it. -/
theorem V5_main_v22 (c : Dev nD) : V5 m ρ c main_v22 = StableHlo.after hostOps0 (W0 m ρ c) (Proc.devRef .tc main_v22) :=
  (W5_of m ρ c main_v22 (by decide)).trans <| (W4_of_ne m ρ c main_v22 (by decide)).trans <|
    (W3_of m ρ c main_v22 (by decide)).trans (W2_of m ρ c main_v22 (by decide))
/-- The column of `dinv` it reads is the second reshape's result, -/
theorem V5_main_v33 (c : Dev nD) : V5 m ρ c main_v33 = StableHlo.after hostOps1 (W4 m ρ c) (Proc.devRef .tc main_v33) := rfl
/-- of `dinv` as the `where` left it: neither the first reshape nor the linear layer writes it. -/
theorem W4_main_v30 (c : Dev nD) : W4 m ρ c (Proc.devRef .tc main_v30) = W2 m ρ c (Proc.devRef .tc main_v30) :=
  (W4_of_ne m ρ c main_v30 (by decide)).trans (W3_of m ρ c main_v30 (by decide))

/-! ### The arguments end as launched -/

/-- Up to the linear layer's exit: `x`, `W`, `b` are inputs of the call, the edge list is not among its arrays. -/
theorem W4_main_arg0 (c : Dev nD) : W4 m ρ c (Proc.devRef .tc main_arg0) = m ((c : Thread nD τ).loc main_arg0) :=
  (W4_in m ρ c 0 rfl).trans (V3_main_arg0 m ρ c)
theorem W4_main_arg1 (c : Dev nD) : W4 m ρ c (Proc.devRef .tc main_arg1) = m ((c : Thread nD τ).loc main_arg1) :=
  (W4_of_ne m ρ c main_arg1 (by decide)).trans (V3_main_arg1 m ρ c)
theorem W4_main_arg2 (c : Dev nD) : W4 m ρ c (Proc.devRef .tc main_arg2) = m ((c : Thread nD τ).loc main_arg2) :=
  (W4_in m ρ c 1 rfl).trans (V3_main_arg2 m ρ c)
theorem W4_main_arg3 (c : Dev nD) : W4 m ρ c (Proc.devRef .tc main_arg3) = m ((c : Thread nD τ).loc main_arg3) :=
  (W4_in m ρ c 2 rfl).trans (V3_main_arg3 m ρ c)
/-- And to the end: the second reshape writes none, and none is among the aggregation's arrays. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans (W4_main_arg0 m ρ c)
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans (W4_main_arg1 m ρ c)
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans (W4_main_arg2 m ρ c)
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans (W4_main_arg3 m ρ c)
/-- The result array ends at what the aggregation's write-backs leave. -/
theorem W6_result (c : Dev nD) : W6 m ρ c (Proc.devRef .tc main_v34) = (R1.dat1 (V5 m ρ) c).arrAt 3 cfg1.N :=
  W6_arr m ρ c 3

/-! ## The bookkeeping of the two calls, and what a core holds between the steps -/

/-- Each call's bookkeeping at the contents it is entered from. -/
def pdats : (p : Fin 2) → (c : Dev nD) → Dat τ (Elt F) Unit ℕ (UR sig nD τ) ℕ (Pipeline.pin (pcfgs (F := F)) adm p) c
  | ⟨0, _⟩ => fun c => R0.dat0 (V3 m ρ) c
  | ⟨1, _⟩ => fun c => R1.dat1 (V5 m ρ) c
abbrev 𝒱₀ : Variants := Variants.none
/-- No core owes another anything. -/
abbrev L : GSem nD τ sig → Finset Unit := fun _ => ∅
abbrev lv : GSem nD τ sig → Unit → ℕ := fun _ _ => 0
/-- What a core holds beside its arrays through every step: its generator register at some state, and nothing owed. -/
abbrev R (c : Dev nD) : sProp 𝕄 := iprop((∃ r, prngReg c r) ∗ ∃ W, owes (c : Thread nD τ) (0 : CellTallies nD τ sig Unit) W)
/-- A host stretch as a step: from every array at `W` to every array at `StableHlo.after ops W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An array is among those a core holds between the steps. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, but for owing nothing: every array at `W6`, the generator register. -/
abbrev Tₙ (c : Dev nD) : sProp 𝕄 := iprop(StableHlo.held (c : Thread nD τ) (Pipeline.ucRefs τ sig) (W6 m ρ c) ∗ ∃ r, prngReg c r)

/-! ## The two calls as steps -/

set_option backward.isDefEq.respectTransparency.types false in
/-- THE LINEAR LAYER: entered from every array at `W3`, left at `W4`. Its five arrays are split out of the rest on
    entry and put back at their exit contents; the generator register passes through the call's invariant; nothing is
    owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION: entered from every array at `W5`, left at `W6` (what the return finds). As the linear layer,
    but for its invariant: between the blocks it also says what the accumulator holds; it is entered from the plain
    one (`R1.hin1`) and gives the plain one back (`R1.hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : iprop(Pipeline.scopedRest spec1 c ∗ ∃ r, prngReg c r) ⊢ (R1.dat1 (V5 m ρ) c).Φ 0 := by
      have h := R1.hin1 (V5 m ρ) c; unfold Pipeline.ΦA at h; exact h
    rw [show (pdats m ρ 1 c).Φ 0 = (R1.dat1 (V5 m ρ) c).Φ 0 from rfl]
    iintro ⟨Hp, -, Hr⟩
    iapply h0
    isplitl [Hr]; · iexact Hr
    iexact Hp
  hout c := by
    have h1 : (R1.dat1 (V5 m ρ) c).Φ (Fin.last cfg1.N) ⊢ iprop(Pipeline.scopedRest spec1 c ∗ ∃ r, prngReg c r) := by
      have h := R1.hout1 (V5 m ρ) c; unfold Pipeline.ΦA at h; exact h
    rw [Pipeline.ownSems0_none, show (pdats m ρ 1 c).Φ (Fin.last _) = (R1.dat1 (V5 m ρ) c).Φ (Fin.last cfg1.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six steps, and the run -/

/-- The six steps in order, each host stretch from the contents the step before leaves. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The program IS the six steps run in order. -/
theorem main_run (c : Dev nD) : main (F := F) c = Pipeline.Seg.run (segs m ρ) := (main_chain c).trans (by chain_rfl)

set_option backward.isDefEq.respectTransparency.types false in
/-- THE RUN. From any launch memory with every counter at zero, every weakly fair execution of the program terminates,
    nothing faulting, and in every final memory each array of each core holds `W6`: the steps chain (each is entered
    from what the one before leaves), the launch gives the first step's state on every core at once, and the last
    state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- So the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Run

end
-- ==== Proof.Region0K.lean ====
import proofs.«173548_j19645180412416_2_alg».proof.Proof.Gen.Kernel.Launch
import proofs.«173548_j19645180412416_2_alg».proof.Proof.Gen.Kernel.Skeleton
import proofs.«173548_j19645180412416_2_alg».proof.Proof.Gen.Kernel.Points
import Idealize.ShloMosaic.Lib.Pipeline.FrameBody
import Idealize.ShloMosaic.Lib.Ring
import Idealize.ShloMosaic.Lib.Tactic

/-! # The linear layer's body, at one block of node rows

The first call of the graph-convolution layer walks the 8192 node rows in eight blocks of 1024. At a
block it reads four things — the block of the features `x` (1024 × 512), the whole weight matrix `W`
(512 × 512), the bias `b` (512 entries) and the block of the degree scaling `dinv` (1024 × 1) — and
overwrites the whole 1024 × 512 block of the result with

    h[r, j] = ((∑ k, x[r, k] · W[j, k]) + b[j]) · dinv[r] .

Here that is said once for any contents the arrays may have when the call is entered: what each of the
five windows' buffers holds after the body as a function of the four blocks read (`out0_4`, whose
one piece is the arithmetic `k0_pay1` of the blocks read whole), the body's triple (`sound_kernel0`),
and the bookkeeping the schedule of fetches and write-backs asks for (`dat0`, `body_obligation0`).
Nothing here depends on the float instance: a block is read, combined and written whole. -/

-- a rectangle of 1024 × 512 entries: membership is looked up once per coordinate of the long axes
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the contents of the core's buffers when the call is entered: everything below is a function of them
variable (V : (c : Dev nD) → (b : Ref sig .tc) → Buf (Elt F) ((c : Thread nD τ).loc b))

/-! ## The blocks -/

/-- Window `w`'s block at point `t`: the rows `1024 t … 1024 t + 1023` of `x`, of `dinv` and of the result
    (windows 0, 3, 4), all of `W` and of `b` (windows 1, 2), read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the body is handed for the block of `x` holds that block at every point — fetched at that point, and
    nothing but the fetch writes it — for any bookkeeping over these arrays (`hA`) whose body leaves the block
    in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer for `W` holds all of `W` at every point: fetched at the first, and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The buffer for `b` holds all of `b` at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The buffer for the block of `dinv` holds that block at every point (fetched at each). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body touches: each buffer whole -/

/-- All of a 1024 × 512 buffer (the block of `x`; the block of the result), -/
abbrev rRows : Rect S1024x512 := Rect.unit (s := S1024x512) ![0, 0] S1024x512.size inb_S1024x512_S1024x512_0_0
/-- all of `W`, -/
abbrev rW : Rect S512x512 := Rect.unit (s := S512x512) ![0, 0] S512x512.size inb_S512x512_S512x512_0_0
/-- all of `b`, -/
abbrev rBias : Rect S512 := Rect.unit (s := S512) ![0] S512.size inb_S512_S512_0
/-- all of the block of `dinv`. -/
abbrev rDinv : Rect S1024x1 := Rect.unit (s := S1024x1) ![0, 0] S1024x1.size inb_S1024x1_S1024x1_0_0

/-! ## What the body leaves in the result's buffer -/

/-- The result's buffer after the body, from the four blocks read: ONE piece, the whole buffer, at
    `((x · Wᵀ) + b) · dinv` of the blocks (`k0_pay1`), whatever the buffer held before. -/
def out0_4 (x0 : Vec F S1024x512 .f32) (x1 : Vec F S512x512 .f32) (x2 : Vec F S512 .f32) (x3 : Vec F S1024x1 .f32) : Vec F S1024x512 .bf16 :=
  View.canon [⟨rRows, k0_pay1 (View.ld x0 rRows) (View.ld x1 rW) (View.ld x2 rBias) (View.ld x3 rDinv)⟩]

/-- That piece is the whole buffer, so every entry is written. -/
theorem cover0_4 (p0 : Vec F S1024x512 .bf16) (y : S1024x512.Idx) :
    ∃ pc ∈ ([⟨rRows, p0⟩] : List (View.Piece (Elt F) S1024x512 .bf16)), y ∈ pc.1.set :=
  View.cover_of_tiled [⟨rRows, p0⟩] S1024x512.size (by rfl) y

/-! ## The body's triple -/

set_option maxHeartbeats 1000000 in
/-- The body on whole buffers — the four inputs' at contents `x0 … x3`, the result's at anything — runs to the
    continuation with the inputs' as they were and the result's at `out0_4` of them: four whole loads, a load of
    the result's buffer whose value is not used, and one whole store. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S1024x1 .f32) (harg4 : arg4.IsWhole)
    (arg5 : Memref sig .tc .vmem S1024x512 .bf16) (harg5 : arg5.IsWhole)
    (x0 : Vec F S1024x512 .f32) (x1 : Vec F S512x512 .f32) (x2 : Vec F S512 .f32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The bookkeeping of the call -/

/-- On core `c`: the arrays as the call finds them (`V`); after the body at point `t` each input's buffer still at
    its block and the result's at `out0_4` of the four blocks; the rest of the core's scoped memory and the
    generator register untouched throughout; nothing owed; every buffer held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- What the body finds in each input's buffer: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body at a generic point -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the rest of the core's
    state passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the schedule asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Region1RunsK.lean ====
/-
  The aggregation kernel (the second pallas_call: grid 8 x 4, an f32 accumulator in scratch memory carried along the
  inner axis k): what its per-case runs are stated over. A grid point is (row block i, column block k). The body
  zeroes the accumulator when k = 0, adds the product of the adjacency tile with rows 2048k .. 2048k + 2047 of the
  scaled features at every k, and when k = 3 stores the accumulator times the row normaliser into the output block.
  Three cases therefore: k = 0 (first), k = 1 or 2 (middle), k = 3 (last). The output window's block index does not
  depend on k and the window is idle (neither stored nor written back) unless k = 3.
-/
import proofs.«173548_j19645180412416_2_alg».proof.Proof.Gen.Kernel.Launch
import proofs.«173548_j19645180412416_2_alg».proof.Proof.Gen.Kernel.Skeleton
import proofs.«173548_j19645180412416_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- `V c b`: the contents of core `c`'s buffer `b` when the region is entered.
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile: input window 0's staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row normaliser's block (window 1, re-fetched only when the row block moves) likewise. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The scaled features, resident whole (window 2, fetched once) likewise. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "k = 0": the accumulator is zeroed. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

/-- "k = 3": the output block is stored. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Unless k = 3 the output window is idle and its block is not written back. -/
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
theorem liveAt_3 : ∀ t : Fin cfg1.N, condLast (grid1.coords t) → cfg1.idle 3 (grid1.coords t) = false := by decide +kernel

/-! ## The memrefs the body is called with -/

/-- One staging buffer of the output window, through which its contents are stated. -/
abbrev VO : View sig .tc .vmem S1024x512 .f32 := (Memref.whole cc1_stg3_0 : Memref sig .tc .vmem S1024x512 .f32).view
abbrev ms_0 (t : Fin cfg1.N) : Memref sig .tc .vmem S1024x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x1 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8192x512 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x512 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev accM : Memref sig .tc .vmem S1024x512 .f32 := Memref.whole cc1_scratch0
abbrev VS : View sig .tc .vmem S1024x512 .f32 := accM.view

/-- The scoped buffers no window stages, with the accumulator singled out as a memref owned at some contents. -/
theorem scopedRest_acc (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) accM fullShare d)) := by
  rw [scopedRest1_eq]; simp only [accM, owns_whole]; try rfl

end Cert.Kernel.R1

end
-- ==== Proof.Region1RunFirstK.lean ====
/-
  The aggregation kernel's body at a point with k = 0, run on any whole staging memrefs: the three inputs at their
  contents, the output buffer (idle here) at contents handed back untouched, the accumulator at anything. It ends with
  the inputs and the output buffer as they were and the accumulator overwritten whole, twice: first with zeros, then
  with zeros plus the first partial product. The list of pieces written (last first) is what the run finds.
-/
import proofs.«173548_j19645180412416_2_alg».proof.Proof.Region1RunsK

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : condFirst i) (hc1 : ¬condLast i)
    (x0 : Vec F S1024x2048 .bf16) (x1 : Vec F S1024x1 .f32) (x2 : Vec F S8192x512 .bf16) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R1

end
-- ==== Proof.Region1RunMidK.lean ====
/-
  The aggregation kernel's body at a point with k = 1 or 2, run on any whole staging memrefs: the three inputs at
  their contents, the output buffer (idle here) at contents handed back untouched, the accumulator at what the point
  before left. It ends with the accumulator overwritten whole with its old contents plus this column block's partial
  product. The list of pieces written is what the run finds.
-/
import proofs.«173548_j19645180412416_2_alg».proof.Proof.Region1RunsK

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : ¬condFirst i) (hc1 : ¬condLast i)
    (x0 : Vec F S1024x2048 .bf16) (x1 : Vec F S1024x1 .f32) (x2 : Vec F S8192x512 .bf16) (xs : Vec F S1024x512 .f32) :
    Σ' (L3 : List (View.Piece (Elt F) S1024x512 .f32)), { LS : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨[], ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.R1

end
-- ==== Proof.Region1RunLastK.lean ====
/-
  The aggregation kernel's body at a point with k = 3, run on any whole staging memrefs: the three inputs at their
  contents, the output buffer at anything, the accumulator at what the point before left. It ends with the accumulator
  overwritten whole with its old contents plus the last partial product, and the output buffer overwritten whole with
  that total times the row normaliser broadcast along the channels. The two lists of pieces written are what the
  run finds.
-/
import proofs.«173548_j19645180412416_2_alg».proof.Proof.Region1RunsK

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S1024x2048 .bf16) (harg2 : arg2.IsWhole) (arg3 : Memref sig .tc .vmem S1024x1 .f32) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (hc0 : ¬condFirst i) (hc1 : condLast i)
    (x0 : Vec F S1024x2048 .bf16) (x1 : Vec F S1024x1 .f32) (x2 : Vec F S8192x512 .bf16) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.R1

end
-- ==== Proof.Region1K.lean ====
/-
  The aggregation kernel (second pallas_call) as a region of the program: what its output buffer and its accumulator hold
  after the body at each grid position, the invariant that carries the accumulator from one position to the next, the
  pipeline's proof data, and the body obligation at every point.
  A position n = 4 i + k is the point (row block i, column block k). After position n the accumulator holds
    k = 0 :  the zero word's value, then + the product of the adjacency tile (i, 0) with rows 0 .. 2047 of the features;
    k > 0 :  what position n - 1 left + the product of tile (i, k) with rows 2048 k .. 2048 k + 2047;
  and at k = 3 the output buffer holds that total times the row normaliser. The invariant before position n + 1 is the
  region's scoped buffers with the accumulator at exactly that value; before position 0 the accumulator holds anything.
-/
import proofs.«173548_j19645180412416_2_alg».proof.Proof.Region1RunFirstK
import proofs.«173548_j19645180412416_2_alg».proof.Proof.Region1RunMidK
import proofs.«173548_j19645180412416_2_alg».proof.Proof.Region1RunLastK

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The whole-buffer rectangle every store of the body writes through. -/
abbrev rAll : Rect S1024x512 := Rect.unit (s := S1024x512) ![0, 0] S1024x512.size inb_S1024x512_S1024x512_0_0

/-- Every index of a [1024, 512] buffer lies in the whole-buffer rectangle. -/
theorem mem_rAll (p0 : rAll.shape.Idx → Elt F .f32) (y : S1024x512.Idx) : y ∈ rAll.set := by
  obtain ⟨pc, hpc, hy⟩ := View.cover_of_tiled ([⟨rAll, p0⟩] : List (View.Piece (Elt F) S1024x512 .f32)) S1024x512.size (by rfl) y
  rw [List.mem_singleton] at hpc; subst hpc; exact hy

/-- The output buffer's placeholder at a position where the window is idle (nothing stored, nothing written back, nothing read). -/
def idleOut : Vec F S1024x512 .f32 := VO.read (Elt F) (VO.writes (Elt F) VO.junk [])

/-- k = 0: the accumulator after the body. -/
def accFirst (c : Dev nD) (t : Fin cfg1.N) (h0 : t.val % 4 = 0) : Vec F S1024x512 .f32 :=
  have h3 : ¬t.val % 4 = 3 := by omega
  VS.read (Elt F) (VS.writes (Elt F) VS.junk (runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.1)

/-- k = 1, 2: the accumulator after the body, from what the position before left (`xs`). -/
def accMid (c : Dev nD) (t : Fin cfg1.N) (h0 : ¬t.val % 4 = 0) (h3 : ¬t.val % 4 = 3) (xs : Vec F S1024x512 .f32) : Vec F S1024x512 .f32 :=
  VS.read (Elt F) (VS.writes (Elt F) VS.junk (runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) xs).2.1)

/-- k = 3: the accumulator and the output buffer after the body. -/
def accLast (c : Dev nD) (t : Fin cfg1.N) (h0 : ¬t.val % 4 = 0) (h3 : t.val % 4 = 3) (xs : Vec F S1024x512 .f32) : Vec F S1024x512 .f32 :=
  VS.read (Elt F) (VS.writes (Elt F) VS.junk (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).2.1)
def outLast (c : Dev nD) (t : Fin cfg1.N) (h0 : ¬t.val % 4 = 0) (h3 : t.val % 4 = 3) (xs : Vec F S1024x512 .f32) : Vec F S1024x512 .f32 :=
  VO.read (Elt F) (VO.writes (Elt F) VO.junk (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).1)

/-- The pieces each case writes into the accumulator cover it: the last store is of the whole buffer. -/
theorem scoverFirst (c : Dev nD) (t : Fin cfg1.N) (h0 : t.val % 4 = 0) (y : S1024x512.Idx) :
    ∃ pc ∈ (runFirst (F := F) c (grid1.coords t) (ms_0 t) (hs_0 t) (ms_1 t) (hs_1 t) (ms_2 t) (hs_2 t) (ms_3 t) (hs_3 t) accM (Memref.isWhole_whole _) ((hcondFirst t).mpr h0) (fun h => by have := (hcondLast t).mp h; omega) (iblk V c 0 t) (iblk V c 1 t) (iblk V c 2 t)).2.1, y ∈ pc.1.set := by
  refine ⟨_, List.mem_cons_self .., ?_⟩
  exact mem_rAll (F := F) (k1_pay1 (F := F)) y
theorem scoverMid (c : Dev nD) (t : Fin cfg1.N) (h0 : ¬t.val % 4 = 0) (h3 : ¬t.val % 4 = 3) (xs : Vec F S1024x512 .f32) (y : S1024x512.Idx) :
    ∃ pc ∈ (runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) xs).2.1, y ∈ pc.1.set := by
  refine ⟨_, List.mem_cons_self .., ?_⟩
  exact mem_rAll (F := F) (k1_pay1 (F := F)) y
theorem scoverLast (c : Dev nD) (t : Fin cfg1.N) (h0 : ¬t.val % 4 = 0) (h3 : t.val % 4 = 3) (xs : Vec F S1024x512 .f32) (y : S1024x512.Idx) :
    ∃ pc ∈ (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).2.1, y ∈ pc.1.set := by
  refine ⟨_, List.mem_cons_self .., ?_⟩
  exact mem_rAll (F := F) (k1_pay1 (F := F)) y
theorem coverLast (c : Dev nD) (t : Fin cfg1.N) (h0 : ¬t.val % 4 = 0) (h3 : t.val % 4 = 3) (xs : Vec F S1024x512 .f32) (y : S1024x512.Idx) :
    ∃ pc ∈ (runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) xs).1, y ∈ pc.1.set := by
  refine ⟨_, List.mem_cons_self .., ?_⟩
  exact mem_rAll (F := F) (k1_pay1 (F := F)) y

/-! ## What the output buffer and the accumulator hold after each position -/

/-- THE ACCUMULATION, by recursion on the position: (output buffer, accumulator). -/
def outsAt (c : Dev nD) : (n : ℕ) → n < cfg1.N → Vec F S1024x512 .f32 × Vec F S1024x512 .f32
  | 0, hn => (idleOut, accFirst V c ⟨0, hn⟩ (Nat.zero_mod _))
  | n + 1, hn =>
    if h0 : (n + 1) % 4 = 0 then (idleOut, accFirst V c ⟨n + 1, hn⟩ h0)
    else if h3 : (n + 1) % 4 = 3 then
      (outLast V c ⟨n + 1, hn⟩ h0 h3 (outsAt c n (Nat.lt_of_succ_lt hn)).2, accLast V c ⟨n + 1, hn⟩ h0 h3 (outsAt c n (Nat.lt_of_succ_lt hn)).2)
    else (idleOut, accMid V c ⟨n + 1, hn⟩ h0 h3 (outsAt c n (Nat.lt_of_succ_lt hn)).2)

theorem outsAt_first (c : Dev nD) (t : Fin cfg1.N) (h0 : t.val % 4 = 0) :
    outsAt V c t.val t.isLt = (idleOut, accFirst V c t h0) := by
  obtain ⟨n, hn⟩ := t
  cases n with
  | zero => exact rfl
  | succ n => exact (dif_pos h0).trans rfl

theorem outsAt_mid (c : Dev nD) (t : Fin cfg1.N) (h0 : ¬t.val % 4 = 0) (h3 : ¬t.val % 4 = 3) :
    outsAt V c t.val t.isLt = (idleOut, accMid V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

theorem outsAt_last (c : Dev nD) (t : Fin cfg1.N) (h0 : ¬t.val % 4 = 0) (h3 : t.val % 4 = 3) :
    outsAt V c t.val t.isLt = (outLast V c t h0 h3 (outsAt V c (t.val - 1) (Nat.lt_of_le_of_lt (Nat.sub_le _ _) t.isLt)).2,
      accLast V c t h0 h3 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The invariant that carries the accumulator -/

/-- The region's scoped buffers that are not its own staging buffers — the first pallas_call's eight staging buffers at
    anything and the accumulator at `acc` — beside the core's generator register at some state. -/
def PhiWith (c : Dev nD) (acc : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ acc) ∗ (∃ r, prngReg c r))

theorem PhiA_eq (c : Dev nD) : (Pipeline.ΦA spec1 c : sProp 𝕄) = PhiWith c iprop(∃ d, owns (c : Thread nD τ) accM fullShare d) := by
  unfold Pipeline.ΦA PhiWith; rw [scopedRest_acc]

/-- Before position 0 the accumulator holds anything; before position n + 1, what position n left. -/
def PhiS (c : Dev nD) : (n : ℕ) → n ≤ cfg1.N → sProp 𝕄
  | 0, _ => Pipeline.ΦA spec1 c
  | n + 1, hn => PhiWith c (owns (c : Thread nD τ) accM fullShare (outsAt V c n hn).2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) accM fullShare (outsAt V c n hn).2) := rfl
theorem PhiS_pos (c : Dev nD) (n : ℕ) (h : n ≤ cfg1.N) (hz : n ≠ 0) :
    PhiS V c n h = PhiWith c (owns (c : Thread nD τ) accM fullShare (outsAt V c (n - 1) (by omega)).2) := by
  cases n with
  | zero => exact absurd rfl hz
  | succ n => rfl

/-! ## The pipeline's proof data -/

/-- The arrays as the region finds them; after the body each input's buffer at its block, the output's at `outsAt`'s
    first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (outsAt V c t.val t.isLt).1 := by dsimp only [dat1]

theorem before1_0 (c : Dev nD) (t : Fin cfg1.N) (d) : (dat1 V c).before 0 t d = iblk V c 0 t :=
  before_0_of V (dat1 V c) (A_eq1 V c 0) (after1_0 V c) t d
theorem before1_1 (c : Dev nD) (t : Fin cfg1.N) (d) : (dat1 V c).before 1 t d = iblk V c 1 t :=
  before_1_of V (dat1 V c) (A_eq1 V c 1) (after1_1 V c) t d
theorem before1_2 (c : Dev nD) (t : Fin cfg1.N) (d) : (dat1 V c).before 2 t d = iblk V c 2 t :=
  before_2_of V (dat1 V c) (A_eq1 V c 2) (after1_2 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (ms_0 t) fullShare ((dat1 V c).before 0 t d))
    ∗ (∃ d, owns (c : Thread nD τ) (ms_1 t) fullShare ((dat1 V c).before 1 t d))
    ∗ (∃ d, owns (c : Thread nD τ) (ms_2 t) fullShare ((dat1 V c).before 2 t d))
    ∗ (∃ d, owns (c : Thread nD τ) (ms_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 4 says which case it is in;
    the invariant hands the body the accumulator at what the position before left (at anything before position 0) and
    takes it back at this position's value; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms_0 t) fullShare ((dat1 V c).after 0 t) from by
    unfold Dat.leavesExact; rw [liveAt_0 t], after1_0]
  rw [show (dat1 V c).leavesExact 1 t = owns (c : Thread nD τ) (ms_1 t) fullShare ((dat1 V c).after 1 t) from by
    unfold Dat.leavesExact; rw [liveAt_1 t], after1_1]
  rw [show (dat1 V c).leavesExact 2 t = owns (c : Thread nD τ) (ms_2 t) fullShare ((dat1 V c).after 2 t) from by
    unfold Dat.leavesExact; rw [liveAt_2 t], after1_2]
  have hN : t.val < 32 := lt_of_lt_of_eq t.isLt (show cfg1.N = 32 from N_1)
  by_cases h0 : t.val % 4 = 0
  · have h3 : ¬t.val % 4 = 3 := by omega
    rw [Dat.leavesExact_idle (dat1 V c) 3 t (idleAt_3 t (fun h => h3 ((hcondLast t).mp h))) (noFlush_3 t (fun h => h3 ((hcondLast t).mp h)))]
    rw [outsAt_first V c t h0]
    unfold accFirst; (try dsimp only)
    by_cases hz : t.val = 0
    · rw [PhiS_castSucc V c t, PhiS_zero V c _ _ hz, PhiA_eq]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverFirst V c t h0)
      isplitl [Ho]; · iexact Ho
      isplitl [H0]; · iexact H0
      isplitl [H1]; · iexact H1
      isplitl [H2]; · iexact H2
      iexists _; iexact H3
    · rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runFirst (F := F) c (grid1.coords t) (ms_0 t) (hs_0 t) (ms_1 t) (hs_1 t) (ms_2 t) (hs_2 t) (ms_3 t) (hs_3 t) accM (Memref.isWhole_whole _) ((hcondFirst t).mpr h0) (fun h => h3 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverFirst V c t h0)
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat1 V c).leavesExact 3 t = owns (c : Thread nD τ) (ms_3 t) fullShare ((dat1 V c).after 3 t) from by
        unfold Dat.leavesExact; rw [liveAt_3 t ((hcondLast t).mpr h3)], after1_3]
      rw [outsAt_last V c t h0 h3]
      unfold outLast accLast; (try dsimp only)
      rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runLast (F := F) c (grid1.coords t) (ms_0 t) (hs_0 t) (ms_1 t) (hs_1 t) (ms_2 t) (hs_2 t) (ms_3 t) (hs_3 t) accM (Memref.isWhole_whole _) (fun h => h0 ((hcondFirst t).mp h)) ((hcondLast t).mpr h3) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverLast V c t h0 h3 _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast V c t h0 h3 _)
    · rw [Dat.leavesExact_idle (dat1 V c) 3 t (idleAt_3 t (fun h => h3 ((hcondLast t).mp h))) (noFlush_3 t (fun h => h3 ((hcondLast t).mp h)))]
      rw [outsAt_mid V c t h0 h3]
      unfold accMid; (try dsimp only)
      rw [PhiS_castSucc V c t, PhiS_pos V c _ _ hz]; unfold PhiWith
      iintro ⟨⟨⟨B1, B2, B3, B4, B5, B6, B7, B8, HS⟩, Hg⟩, Ho, ⟨%d0, H0⟩, ⟨%d1, H1⟩, ⟨%d2, H2⟩, ⟨%d3, H3⟩⟩
      iapply ((runMid (F := F) c (grid1.coords t) (ms_0 t) (hs_0 t) (ms_1 t) (hs_1 t) (ms_2 t) (hs_2 t) (ms_3 t) (hs_3 t) accM (Memref.isWhole_whole _) (fun h => h0 ((hcondFirst t).mp h)) (fun h => h3 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [B1 B2 B3 B4 B5 B6 B7 B8 HS Hg]
      · isplitr [Hg]
        swap; · iexact Hg
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        unfold owns; iexists _; isplitr
        swap; · iexact HS
        ipureintro; exact View.read_writes_of_cover _ _ _ _ _ (scoverMid V c t h0 h3 _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl,
    PhiS_pos V c _ _ hne, PhiA_eq]
  unfold PhiWith
  iintro ⟨⟨B1, B2, B3, B4, B5, B6, B7, B8, HS⟩, Hg⟩
  isplitr [Hg]
  swap; · iexact Hg
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexists _; iexact HS

end Cert.Kernel.R1

end
-- ==== Proof.KernelRunK.lean ====
import proofs.«173548_j19645180412416_2_alg».proof.Proof.Region0K
import proofs.«173548_j19645180412416_2_alg».proof.Proof.Region1K
import proofs.«173548_j19645180412416_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole run of the graph-convolution layer

The program is six steps in a row: three stretches of array operations on the host (the index array and the
adjacency matrix `adj` scattered from it, its row sums and `dinv`; the `where` that guards empty rows; the
reshape of `dinv` to a column), the linear layer `h = (x · Wᵀ + b) · dinv` over eight blocks of rows, one more
reshape of `dinv`, and the aggregation `out = (adj · h) · dinv` over 8 × 4 blocks.

Here the contents of every array are followed through the six steps, `W0` (as launched) to `W6` (at the
return): a host stretch rewrites the arrays its operations write, a call leaves each of its arrays at what its
write-backs leave and every other array as it was. The run is then one theorem: from any launch memory every
weakly fair execution terminates, and the final memory is `W6` at every array (`run_all`); the four arguments
are among the arrays no step writes (`W6_main_argK`), and the result is what the aggregation's write-backs
leave (`W6_result`). -/

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the steps -/

/-- Core `c`'s arrays at launch. -/
abbrev W0 : Dev nD → Valuation τ sig (Elt F) := fun c b => (s₀ m ρ).mem ((c : Dev nD), b)
/-- After the first host stretch: `adj`, its row sums and `rsqrt` of them are there. -/
abbrev W1 : Dev nD → Valuation τ sig (Elt F) := fun c => StableHlo.after hostOps0 (W0 m ρ c)
/-- After the `where`: `dinv` is there. -/
abbrev W2 : Dev nD → Valuation τ sig (Elt F) := fun c => StableHlo.after hostOps0_1 (W1 m ρ c)
/-- After `dinv` is reshaped to a column: what the linear layer is entered from. -/
abbrev W3 : Dev nD → Valuation τ sig (Elt F) := fun c => StableHlo.after hostOps0_2 (W2 m ρ c)
/-- The same read at the core's own references (what the linear layer's bookkeeping takes). -/
abbrev V3 : (c : Dev nD) → (b : Ref sig .tc) → Buf (Elt F) ((c : Thread nD τ).loc b) := fun c b => W3 m ρ c b
/-- After the linear layer: its five arrays at what the call leaves — the four inputs as entered, `h` at its
    write-backs folded over the eight blocks —, every other array as entered. -/
def W4 (c : Dev nD) : Valuation τ sig (Elt F) :=
  Pipeline.withArrays spec0 c (W3 m ρ c) fun w => (R0.dat0 (V3 m ρ) c).arrAt w cfg0.N
theorem W4_arr (c : Dev nD) (w : Fin cfg0.W) :
    W4 m ρ c (Proc.devRef .tc (Pipeline.arrRef spec0 w)) = (R0.dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the core's own references. -/
abbrev V4 : (c : Dev nD) → (b : Ref sig .tc) → Buf (Elt F) ((c : Thread nD τ).loc b) := fun c b => W4 m ρ c b
/-- At the linear layer's exit each of its arrays holds what the call leaves, and every other array what it held. -/
theorem hF0 (c : Dev nD) (w : Fin cfg0.W) : (R0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `dinv` is reshaped to a column once more: what the aggregation is entered from. -/
abbrev W5 : Dev nD → Valuation τ sig (Elt F) := fun c => StableHlo.after hostOps1 (W4 m ρ c)
/-- The same read at the core's own references (what the aggregation's bookkeeping takes). -/
abbrev V5 : (c : Dev nD) → (b : Ref sig .tc) → Buf (Elt F) ((c : Thread nD τ).loc b) := fun c b => W5 m ρ c b
/-- After the aggregation: its four arrays at what the call leaves — `adj`, `dinv` and `h` as entered, the result
    at its write-backs folded over the 8 × 4 blocks —, every other array as entered. -/
def W6 (c : Dev nD) : Valuation τ sig (Elt F) :=
  Pipeline.withArrays spec1 c (W5 m ρ c) fun w => (R1.dat1 (V5 m ρ) c).arrAt w cfg1.N
theorem W6_arr (c : Dev nD) (w : Fin cfg1.W) :
    W6 m ρ c (Proc.devRef .tc (Pipeline.arrRef spec1 w)) = (R1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the core's own references. -/
abbrev V6 : (c : Dev nD) → (b : Ref sig .tc) → Buf (Elt F) ((c : Thread nD τ).loc b) := fun c b => W6 m ρ c b
/-- At the aggregation's exit each of its arrays holds what the call leaves, and every other array what it held. -/
theorem hF1 (c : Dev nD) (w : Fin cfg1.W) : (R1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## Arrays a step does not write -/

/-- An array none of the first stretch's operations writes holds after it what it held before; -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- the same for the `where`, -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- the first reshape of `dinv`, -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- and the second. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- An input array of the linear layer leaves the call as it entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((R0.dat0 (V3 m ρ) c).arrAt_in w hw _).trans (R0.A_eq0 (V3 m ρ) c w))

/-! ### What the linear layer is entered from -/

/-- The features `x`, the weights `W` and the bias `b` are as launched: no host operation writes an argument. -/
theorem V3_main_arg0 (c : Dev nD) : V3 m ρ c main_arg0 = m ((c : Thread nD τ).loc main_arg0) :=
  (W3_of m ρ c main_arg0 (by decide)).trans <| (W2_of m ρ c main_arg0 (by decide)).trans <| (W1_of m ρ c main_arg0 (by decide)).trans rfl
theorem V3_main_arg1 (c : Dev nD) : V3 m ρ c main_arg1 = m ((c : Thread nD τ).loc main_arg1) :=
  (W3_of m ρ c main_arg1 (by decide)).trans <| (W2_of m ρ c main_arg1 (by decide)).trans <| (W1_of m ρ c main_arg1 (by decide)).trans rfl
theorem V3_main_arg2 (c : Dev nD) : V3 m ρ c main_arg2 = m ((c : Thread nD τ).loc main_arg2) :=
  (W3_of m ρ c main_arg2 (by decide)).trans <| (W2_of m ρ c main_arg2 (by decide)).trans <| (W1_of m ρ c main_arg2 (by decide)).trans rfl
theorem V3_main_arg3 (c : Dev nD) : V3 m ρ c main_arg3 = m ((c : Thread nD τ).loc main_arg3) :=
  (W3_of m ρ c main_arg3 (by decide)).trans <| (W2_of m ρ c main_arg3 (by decide)).trans <| (W1_of m ρ c main_arg3 (by decide)).trans rfl
/-- Every array there is the three host stretches applied in order to the launch contents (by definition). -/
theorem V3_eq (c : Dev nD) (b : Ref sig .tc) :
    V3 m ρ c b = StableHlo.after hostOps0_2 (StableHlo.after hostOps0_1 (StableHlo.after hostOps0 (W0 m ρ c))) (Proc.devRef .tc b) := rfl
/-- The column of `dinv` it reads is the reshape's result over the arrays after the `where`. -/
theorem V3_main_v31 (c : Dev nD) : V3 m ρ c main_v31 = StableHlo.after hostOps0_2 (W2 m ρ c) (Proc.devRef .tc main_v31) := rfl

/-! ### What the aggregation is entered from -/

/-- `h` is what the linear layer's write-backs leave: the second reshape does not write it. -/
theorem V5_main_v32 (c : Dev nD) : V5 m ρ c main_v32 = (R0.dat0 (V3 m ρ) c).arrAt 4 cfg0.N :=
  (W5_of m ρ c main_v32 (by decide)).trans (W4_arr m ρ c 4)
/-- `adj` is as the first host stretch left it: nothing after that stretch writes it. -/
theorem V5_main_v22 (c : Dev nD) : V5 m ρ c main_v22 = StableHlo.after hostOps0 (W0 m ρ c) (Proc.devRef .tc main_v22) :=
  (W5_of m ρ c main_v22 (by decide)).trans <| (W4_of_ne m ρ c main_v22 (by decide)).trans <|
    (W3_of m ρ c main_v22 (by decide)).trans (W2_of m ρ c main_v22 (by decide))
/-- The column of `dinv` it reads is the second reshape's result, -/
theorem V5_main_v33 (c : Dev nD) : V5 m ρ c main_v33 = StableHlo.after hostOps1 (W4 m ρ c) (Proc.devRef .tc main_v33) := rfl
/-- of `dinv` as the `where` left it: neither the first reshape nor the linear layer writes it. -/
theorem W4_main_v30 (c : Dev nD) : W4 m ρ c (Proc.devRef .tc main_v30) = W2 m ρ c (Proc.devRef .tc main_v30) :=
  (W4_of_ne m ρ c main_v30 (by decide)).trans (W3_of m ρ c main_v30 (by decide))

/-! ### The arguments end as launched -/

/-- Up to the linear layer's exit: `x`, `W`, `b` are inputs of the call, the edge list is not among its arrays. -/
theorem W4_main_arg0 (c : Dev nD) : W4 m ρ c (Proc.devRef .tc main_arg0) = m ((c : Thread nD τ).loc main_arg0) :=
  (W4_in m ρ c 0 rfl).trans (V3_main_arg0 m ρ c)
theorem W4_main_arg1 (c : Dev nD) : W4 m ρ c (Proc.devRef .tc main_arg1) = m ((c : Thread nD τ).loc main_arg1) :=
  (W4_of_ne m ρ c main_arg1 (by decide)).trans (V3_main_arg1 m ρ c)
theorem W4_main_arg2 (c : Dev nD) : W4 m ρ c (Proc.devRef .tc main_arg2) = m ((c : Thread nD τ).loc main_arg2) :=
  (W4_in m ρ c 1 rfl).trans (V3_main_arg2 m ρ c)
theorem W4_main_arg3 (c : Dev nD) : W4 m ρ c (Proc.devRef .tc main_arg3) = m ((c : Thread nD τ).loc main_arg3) :=
  (W4_in m ρ c 2 rfl).trans (V3_main_arg3 m ρ c)
/-- And to the end: the second reshape writes none, and none is among the aggregation's arrays. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans (W4_main_arg0 m ρ c)
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans (W4_main_arg1 m ρ c)
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans (W4_main_arg2 m ρ c)
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans (W4_main_arg3 m ρ c)
/-- The result array ends at what the aggregation's write-backs leave. -/
theorem W6_result (c : Dev nD) : W6 m ρ c (Proc.devRef .tc main_v34) = (R1.dat1 (V5 m ρ) c).arrAt 3 cfg1.N :=
  W6_arr m ρ c 3

/-! ## The bookkeeping of the two calls, and what a core holds between the steps -/

/-- Each call's bookkeeping at the contents it is entered from. -/
def pdats : (p : Fin 2) → (c : Dev nD) → Dat τ (Elt F) Unit ℕ (UR sig nD τ) ℕ (Pipeline.pin (pcfgs (F := F)) adm p) c
  | ⟨0, _⟩ => fun c => R0.dat0 (V3 m ρ) c
  | ⟨1, _⟩ => fun c => R1.dat1 (V5 m ρ) c
abbrev 𝒱₀ : Variants := Variants.none
/-- No core owes another anything. -/
abbrev L : GSem nD τ sig → Finset Unit := fun _ => ∅
abbrev lv : GSem nD τ sig → Unit → ℕ := fun _ _ => 0
/-- What a core holds beside its arrays through every step: its generator register at some state, and nothing owed. -/
abbrev R (c : Dev nD) : sProp 𝕄 := iprop((∃ r, prngReg c r) ∗ ∃ W, owes (c : Thread nD τ) (0 : CellTallies nD τ sig Unit) W)
/-- A host stretch as a step: from every array at `W` to every array at `StableHlo.after ops W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An array is among those a core holds between the steps. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, but for owing nothing: every array at `W6`, the generator register. -/
abbrev Tₙ (c : Dev nD) : sProp 𝕄 := iprop(StableHlo.held (c : Thread nD τ) (Pipeline.ucRefs τ sig) (W6 m ρ c) ∗ ∃ r, prngReg c r)

/-! ## The two calls as steps -/

set_option backward.isDefEq.respectTransparency.types false in
/-- THE LINEAR LAYER: entered from every array at `W3`, left at `W4`. Its five arrays are split out of the rest on
    entry and put back at their exit contents; the generator register passes through the call's invariant; nothing is
    owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE AGGREGATION: entered from every array at `W5`, left at `W6` (what the return finds). As the linear layer,
    but for its invariant: between the blocks it also says what the accumulator holds; it is entered from the plain
    one (`R1.hin1`) and gives the plain one back (`R1.hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : iprop(Pipeline.scopedRest spec1 c ∗ ∃ r, prngReg c r) ⊢ (R1.dat1 (V5 m ρ) c).Φ 0 := by
      have h := R1.hin1 (V5 m ρ) c; unfold Pipeline.ΦA at h; exact h
    rw [show (pdats m ρ 1 c).Φ 0 = (R1.dat1 (V5 m ρ) c).Φ 0 from rfl]
    iintro ⟨Hp, -, Hr⟩
    iapply h0
    isplitl [Hr]; · iexact Hr
    iexact Hp
  hout c := by
    have h1 : (R1.dat1 (V5 m ρ) c).Φ (Fin.last cfg1.N) ⊢ iprop(Pipeline.scopedRest spec1 c ∗ ∃ r, prngReg c r) := by
      have h := R1.hout1 (V5 m ρ) c; unfold Pipeline.ΦA at h; exact h
    rw [Pipeline.ownSems0_none, show (pdats m ρ 1 c).Φ (Fin.last _) = (R1.dat1 (V5 m ρ) c).Φ (Fin.last cfg1.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six steps, and the run -/

/-- The six steps in order, each host stretch from the contents the step before leaves. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The program IS the six steps run in order. -/
theorem main_run (c : Dev nD) : main (F := F) c = Pipeline.Seg.run (segs m ρ) := (main_chain c).trans (by chain_rfl)

set_option backward.isDefEq.respectTransparency.types false in
/-- THE RUN. From any launch memory with every counter at zero, every weakly fair execution of the program terminates,
    nothing faulting, and in every final memory each array of each core holds `W6`: the steps chain (each is entered
    from what the one before leaves), the launch gives the first step's state on every core at once, and the last
    state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- So the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Run

end
-- ==== Proof.RefRead.lean ====
/-
  The reference's run and its stages read one operation at a time (the two modules this one imports); the reading
  of the stages at an index against the specification is in the Ref… / Spec… modules.
-/
import proofs.«173548_j19645180412416_2_alg».proof.Proof.RefReadP
-- ==== Proof.SpecGcn.lean ====
/-
  A graph-convolution layer over the extended reals, as mathematics only (no program is imported).

  For an adjacency `A p j` (8192 × 8192), node features `X j k` (8192 × 512), a weight `W q k` (512 × 512,
  applied transposed) and a bias `b q`, the layer is
      out p q = ∑ j, ((n p * A p j) * n j) * (∑ k, X j k * W q k + b q),
  where `n p` is the inverse square root of row `p`'s degree `∑ k, A p k`, taken as `0` at a degree that is
  not positive. The tiled evaluation keeps a running total over four blocks of 2048 consecutive rows `j`,
  each block adding `∑ j, A p j * ((∑ k, X j k * W q k + b q) * n j)`, and multiplies the total by `n p`
  at the end. The two agree because `n p` is a non-negative REAL: multiplication by such a factor
  distributes over every sum of extended reals, infinite terms included; the rest is commutativity and
  associativity of the product.
-/
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

namespace Cert.GcnSpec

open Idealize.ShloMosaic
open scoped BigOperators

/-! ## The inverse square root of a degree -/

/-- The inverse square root of a degree `d`: `1 / √(max d ε)` where `d` is positive (`ε` the float nearest
    `1e-30`), and `0` elsewhere. -/
def invSqrtDeg (d : EReal) : EReal :=
  if 0 < d then Ideal.rsqrt (max d (Ideal.ofBits .f32 0x0DA24260#32)) else 0

/-- The inverse square root of a positive extended real is a non-negative real (`0` at `+∞`). -/
theorem rsqrt_nonneg_ne_top_of_pos {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := EReal.coe_pos.mp hy
    rw [Ideal.rsqrt_coe, if_neg (not_lt.mpr hr.le), if_neg hr.ne']
    exact ⟨EReal.coe_nonneg.mpr (inv_nonneg.mpr (Real.sqrt_nonneg r)), EReal.coe_ne_top _⟩

/-- So the normalising factor is a non-negative real at EVERY degree, whatever the floor `ε` denotes: where the
    degree is positive the maximum is positive too. -/
theorem invSqrtDeg_nonneg_ne_top (d : EReal) : 0 ≤ invSqrtDeg d ∧ invSqrtDeg d ≠ ⊤ := by
  unfold invSqrtDeg
  split_ifs with h
  · exact rsqrt_nonneg_ne_top_of_pos (lt_of_lt_of_le h (le_max_left _ _))
  · exact ⟨le_rfl, EReal.zero_ne_top⟩

/-- The factor as a program spells it, element by element: a select on `d > 0` between the host's `rsqrt` of
    `max d ε` and the zero word. -/
theorem select_rsqrt_eq_invSqrtDeg (d : EReal) :
    Scalar.select (FloatOps.cmpf (F := Ideal) (φ := .f32) .ogt d (Ideal.ofBits .f32 0x00000000#32))
        (FloatOps.hostUnary (F := Ideal) (φ := .f32) .rsqrt
          (FloatOps.maximumf (F := Ideal) (φ := .f32) d (Ideal.ofBits .f32 0x0DA24260#32)))
        (Ideal.ofBits .f32 0x00000000#32)
      = invSqrtDeg d := by
  rw [Ideal.ofBits_zero_f32]
  show Scalar.select (Ideal.cmp .ogt d 0) (Ideal.rsqrt (max d (Ideal.ofBits .f32 0x0DA24260#32))) 0 = invSqrtDeg d
  unfold invSqrtDeg Scalar.select Ideal.cmp
  by_cases h : 0 < d
  · simp [h]
  · simp [h]

/-! ## The words for zero and one, in the two formats -/

/-- The 16-bit word `0x3F80` and the 32-bit word `0x3F800000` both denote `1`. -/
theorem one_bf16_eq_one_f32 : Ideal.ofBits .bf16 0x3F80#16 = Ideal.ofBits .f32 0x3F800000#32 := by
  have h1 : Ideal.ofBits .bf16 0x3F80#16 = 1 := by simp [Ideal.ofBits, Ideal.ieee, -EReal.coe_mul]; norm_num
  have h2 : Ideal.ofBits .f32 0x3F800000#32 = 1 := by simp [Ideal.ofBits, Ideal.ieee, -EReal.coe_mul]; norm_num
  rw [h1, h2]

/-- The two zero words both denote `0`. -/
theorem zero_bf16_eq_zero_f32 : Ideal.ofBits .bf16 0x0000#16 = Ideal.ofBits .f32 0x00000000#32 := by
  have h1 : Ideal.ofBits .bf16 0x0000#16 = 0 := by simp [Ideal.ofBits, Ideal.ieee]
  rw [h1, Ideal.ofBits_zero_f32]

/-! ## Rows in blocks of 2048 -/

/-- Row `j` of block `k`: the row `2048 * k + j` of the 8192. -/
def blockRow (k : Fin 4) (j : Fin 2048) : Fin 8192 :=
  ⟨2048 * k.val + j.val, by have := k.isLt; have := j.isLt; omega⟩

theorem blockRow_val (k : Fin 4) (j : Fin 2048) : (blockRow k j).val = 2048 * k.val + j.val := rfl

/-- A sum over the 8192 rows is the running total over the four blocks, taken in order from `0`. -/
theorem sum_eq_running_total (f : Fin 8192 → EReal) :
    ∑ j : Fin 8192, f j
      = (((0 + ∑ j : Fin 2048, f (blockRow 0 j)) + ∑ j : Fin 2048, f (blockRow 1 j))
          + ∑ j : Fin 2048, f (blockRow 2 j)) + ∑ j : Fin 2048, f (blockRow 3 j) := by
  have e3 : ∑ j : Fin 8192, f j
      = ∑ i : Fin 6144, f (Fin.castAdd 2048 i) + ∑ i : Fin 2048, f (Fin.natAdd 6144 i) :=
    Fin.sum_univ_add (a := 6144) (b := 2048) f
  have e2 : ∑ i : Fin 6144, f (Fin.castAdd 2048 i)
      = ∑ i : Fin 4096, f (Fin.castAdd 2048 (Fin.castAdd 2048 i))
        + ∑ i : Fin 2048, f (Fin.castAdd 2048 (Fin.natAdd 4096 i)) :=
    Fin.sum_univ_add (a := 4096) (b := 2048) (fun i => f (Fin.castAdd 2048 i))
  have e1 : ∑ i : Fin 4096, f (Fin.castAdd 2048 (Fin.castAdd 2048 i))
      = ∑ i : Fin 2048, f (Fin.castAdd 2048 (Fin.castAdd 2048 (Fin.castAdd 2048 i)))
        + ∑ i : Fin 2048, f (Fin.castAdd 2048 (Fin.castAdd 2048 (Fin.natAdd 2048 i))) :=
    Fin.sum_univ_add (a := 2048) (b := 2048) (fun i => f (Fin.castAdd 2048 (Fin.castAdd 2048 i)))
  rw [e3, e2, e1, zero_add]
  refine congrArg₂ (· + ·) (congrArg₂ (· + ·) (congrArg₂ (· + ·) ?_ ?_) ?_) ?_ <;>
    exact Finset.sum_congr rfl fun i _ => congrArg f (Fin.ext (by
      simp only [blockRow_val, Fin.coe_castAdd, Fin.coe_natAdd]; simp))

/-! ## A non-negative real factor distributes over a sum -/

/-- Multiplying on the right by a non-negative real distributes over a finite sum of extended reals. -/
theorem sum_mul_of_nonneg_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-! ## The law between the tiled evaluation and the layer -/

/-- THE LAW. For an adjacency `A`, any `H` and a vector `D` of non-negative reals: the running total over the four
    blocks of `∑ j, A p j * (H j q * D j)`, multiplied on the right by `D p`, is `∑ j, ((D p * A p j) * D j) * H j q`. -/
theorem running_total_mul_eq (A : Fin 8192 → Fin 8192 → EReal) (D : Fin 8192 → EReal) (H : Fin 8192 → Fin 512 → EReal)
    (hD : ∀ p, 0 ≤ D p ∧ D p ≠ ⊤) (p : Fin 8192) (q : Fin 512) :
    ((((0 + ∑ j : Fin 2048, A p (blockRow 0 j) * (H (blockRow 0 j) q * D (blockRow 0 j)))
          + ∑ j : Fin 2048, A p (blockRow 1 j) * (H (blockRow 1 j) q * D (blockRow 1 j)))
          + ∑ j : Fin 2048, A p (blockRow 2 j) * (H (blockRow 2 j) q * D (blockRow 2 j)))
          + ∑ j : Fin 2048, A p (blockRow 3 j) * (H (blockRow 3 j) q * D (blockRow 3 j))) * D p
      = ∑ j : Fin 8192, ((D p * A p j) * D j) * H j q := by
  have h := sum_eq_running_total (fun j => A p j * (H j q * D j))
  beta_reduce at h
  rw [← h, sum_mul_of_nonneg_ne_top _ _ (hD p).1 (hD p).2]
  refine Finset.sum_congr rfl fun j _ => ?_
  simp only [mul_comm, mul_assoc, mul_left_comm]

/-! ## The layer -/

/-- Row `p`'s degree. -/
def degree (A : Fin 8192 → Fin 8192 → EReal) (p : Fin 8192) : EReal := ∑ k : Fin 8192, A p k

/-- Row `p`'s normalising factor. -/
def normFactor (A : Fin 8192 → Fin 8192 → EReal) (p : Fin 8192) : EReal := invSqrtDeg (degree A p)

theorem normFactor_nonneg_ne_top (A : Fin 8192 → Fin 8192 → EReal) (p : Fin 8192) :
    0 ≤ normFactor A p ∧ normFactor A p ≠ ⊤ := invSqrtDeg_nonneg_ne_top _

/-- The affine map of the features: `∑ k, X j k * W q k + b q`. -/
def affine (X : Fin 8192 → Fin 512 → EReal) (W : Fin 512 → Fin 512 → EReal) (b : Fin 512 → EReal)
    (j : Fin 8192) (q : Fin 512) : EReal :=
  (∑ k : Fin 512, X j k * W q k) + b q

/-- The layer's output at `(p, q)`. -/
def layer (A : Fin 8192 → Fin 8192 → EReal) (X : Fin 8192 → Fin 512 → EReal) (W : Fin 512 → Fin 512 → EReal)
    (b : Fin 512 → EReal) (p : Fin 8192) (q : Fin 512) : EReal :=
  ∑ j : Fin 8192, ((normFactor A p * A p j) * normFactor A j) * affine X W b j q

/-- The tiled evaluation is the layer: the running total over the four blocks of the adjacency row against the
    scaled affine features, times the row's factor. -/
theorem running_total_mul_eq_layer (A : Fin 8192 → Fin 8192 → EReal) (X : Fin 8192 → Fin 512 → EReal)
    (W : Fin 512 → Fin 512 → EReal) (b : Fin 512 → EReal) (p : Fin 8192) (q : Fin 512) :
    ((((0 + ∑ j : Fin 2048, A p (blockRow 0 j) * (affine X W b (blockRow 0 j) q * normFactor A (blockRow 0 j)))
          + ∑ j : Fin 2048, A p (blockRow 1 j) * (affine X W b (blockRow 1 j) q * normFactor A (blockRow 1 j)))
          + ∑ j : Fin 2048, A p (blockRow 2 j) * (affine X W b (blockRow 2 j) q * normFactor A (blockRow 2 j)))
          + ∑ j : Fin 2048, A p (blockRow 3 j) * (affine X W b (blockRow 3 j) q * normFactor A (blockRow 3 j)))
        * normFactor A p
      = layer A X W b p q :=
  running_total_mul_eq A (normFactor A) (affine X W b) (normFactor_nonneg_ne_top A) p q

end Cert.GcnSpec

end
-- ==== Proof.RefValue.lean ====
/-
  The reference computes the graph-convolution layer of the specification: its result at `(p, q)`, read one
  operation at a time down to the argument arrays, is `GcnSpec.layer` of the adjacency the scatter stage builds
  from the edge list, the node features, the weight and the bias.

  The adjacency is kept as the scatter stage itself (a function of the edge list's contents): nothing here looks
  inside the scatter or the index array it is given; only its two constant operands are read (`0` everywhere for
  the base, `1` everywhere for the updates), so that another program's scatter of the same index array with
  other words for `0` and `1` can be identified with it.
-/
import proofs.«173548_j19645180412416_2_alg».proof.Proof.RefRead
import proofs.«173548_j19645180412416_2_alg».proof.Proof.SpecGcn

noncomputable section

namespace Cert.ReferenceIdeal.RefValue

open Cert.ReferenceIdeal Cert.ReferenceIdeal.Gen Cert.ReferenceIdeal.ReadP Idealize.ShloMosaic Idealize.ShloMosaic.ValueIdx
open Cert.GcnSpec
open scoped BigOperators

/-! ## The argument arrays as functions of coordinates -/

/-- The adjacency the edge list `x1` denotes: the scatter stage at `(p, j)`. -/
def adj (x1 : (⟨S2x262144, .i32⟩ : BufTy).Contents (Elt Ideal)) (p j : Fin 8192) : EReal :=
  val_main_v22 (F := Ideal) x1 (ix2 p j)

/-- The node features at `(j, k)`. -/
def feat (x0 : (⟨S8192x512, .f32⟩ : BufTy).Contents (Elt Ideal)) (j : Fin 8192) (k : Fin 512) : EReal := x0 (ix2 j k)

/-- The weight at `(q, k)` (output channel first). -/
def weight (x2 : (⟨S512x512, .f32⟩ : BufTy).Contents (Elt Ideal)) (q k : Fin 512) : EReal := x2 (ix2 q k)

/-- The bias at `q`. -/
def bias (x3 : (⟨S512, .f32⟩ : BufTy).Contents (Elt Ideal)) (q : Fin 512) : EReal := x3 (ix1 q)

/-! ## The adjacency as a scatter of ones into zeros -/

/-- The integer index array (270336 pairs: the edges' rows and columns, then the self-loops) built from the edge
    list; kept as the stage that builds it. -/
def edgeIndex (x1 : (⟨S2x262144, .i32⟩ : BufTy).Contents (Elt Ideal)) : IVec S270336x2 32 :=
  val_main_v20 (F := Ideal) x1

/-- The scatter that sets `o` at every indexed place of an array of `z`s. -/
def scatterSet (z o : EReal) (idx : IVec S270336x2 32) : S8192x8192.Idx → EReal :=
  Host.scatter scatter_S8192x8192_S270336x2_S270336_n_01_01_1 (fun _ b => b) (fun _ => z) idx (fun _ => o)

/-- The reference's adjacency is the scatter of the word for `1` into an array of the word for `0`. -/
theorem adj_eq_scatterSet (x1 : (⟨S2x262144, .i32⟩ : BufTy).Contents (Elt Ideal)) (p j : Fin 8192) :
    adj x1 p j
      = scatterSet (Ideal.ofBits .f32 0x00000000#32) (Ideal.ofBits .f32 0x3F800000#32) (edgeIndex x1) (ix2 p j) := by
  have h7 : val_main_v7 (F := Ideal) = fun _ => Ideal.ofBits .f32 0x00000000#32 :=
    funext fun i => by rw [val_main_v7_apply, val_main_cst_apply]; rfl
  have h21 : val_main_v21 (F := Ideal) = fun _ => Ideal.ofBits .f32 0x3F800000#32 :=
    funext fun i => by rw [val_main_v21_apply, val_main_cst_3_apply]; rfl
  unfold adj val_main_v22 scatterSet edgeIndex
  rw [h7, h21]

/-! ## The stages at an index -/

/-- The degree stage at `p`: the row sum of the adjacency. -/
theorem degree_stage (x1 : (⟨S2x262144, .i32⟩ : BufTy).Contents (Elt Ideal)) (p : Fin 8192) :
    val_main_v23 (F := Ideal) x1 (ix1 p) = degree (adj x1) p := by
  rw [val_main_v23_apply, val_main_cst_4_apply, Ideal.ofBits_def, Ideal.ofBits_zero_f32, zero_add]
  unfold degree adj
  exact Finset.sum_congr rfl fun k _ => congrArg (val_main_v22 (F := Ideal) x1)
    (funext fun a => Fin.ext (by match a with | ⟨0, _⟩ => rfl | ⟨1, _⟩ => rfl))

/-- The normalising stage at `p`: the inverse square root of the degree, `0` where the degree is not positive. -/
theorem norm_stage (x1 : (⟨S2x262144, .i32⟩ : BufTy).Contents (Elt Ideal)) (p : Fin 8192) :
    val_main_v29 (F := Ideal) x1 (ix1 p) = normFactor (adj x1) p := by
  rw [val_main_v29_apply, val_main_v25_apply, val_main_v28_apply, val_main_v27_apply, val_main_v24_apply,
    val_main_v26_apply, val_main_call0_v1_apply, val_main_call0_v0_apply, val_main_cst_5_apply,
    val_main_cst_6_apply, val_main_cst_7_apply, degree_stage]
  exact select_rsqrt_eq_invSqrtDeg _

/-- The normalised adjacency at `(p, j)`. -/
theorem normalised_stage (x1 : (⟨S2x262144, .i32⟩ : BufTy).Contents (Elt Ideal)) (p j : Fin 8192) :
    val_main_v35 (F := Ideal) x1 (ix2 p j) = (normFactor (adj x1) p * adj x1 p j) * normFactor (adj x1) j := by
  have erow : idx_main_v30 (idx_main_v31 (ix2 p j)) = ix1 p :=
    funext fun a => Fin.ext (by match a with | ⟨0, _⟩ => rfl)
  have ecol : idx_main_v33 (idx_main_v34 (ix2 p j)) = ix1 j :=
    funext fun a => Fin.ext (by match a with | ⟨0, _⟩ => rfl)
  rw [val_main_v35_apply, val_main_v32_apply, val_main_v31_apply, val_main_v30_apply, val_main_v34_apply,
    val_main_v33_apply, erow, ecol, norm_stage, norm_stage]
  rfl

/-- The affine stage at `(j, q)`. -/
theorem affine_stage (x0 : (⟨S8192x512, .f32⟩ : BufTy).Contents (Elt Ideal))
    (x2 : (⟨S512x512, .f32⟩ : BufTy).Contents (Elt Ideal)) (x3 : (⟨S512, .f32⟩ : BufTy).Contents (Elt Ideal))
    (j : Fin 8192) (q : Fin 512) :
    val_main_v40 (F := Ideal) x0 x2 x3 (ix2 j q) = affine (feat x0) (weight x2) (bias x3) j q := by
  have eb : idx_main_v38 (idx_main_v39 (ix2 j q)) = ix1 q :=
    funext fun a => Fin.ext (by match a with | ⟨0, _⟩ => rfl)
  rw [val_main_v40_apply, val_main_v37_apply, val_main_v39_apply, val_main_v38_apply, eb]
  unfold affine feat weight bias
  show _ + _ = _ + _
  refine congrArg₂ (· + ·) (Finset.sum_congr rfl fun k _ => ?_) rfl
  rw [val_main_v36_apply]
  refine congrArg₂ (· * ·) (congrArg x0 ?_) (congrArg x2 ?_) <;>
    exact funext fun a => Fin.ext (by match a with | ⟨0, _⟩ => rfl | ⟨1, _⟩ => rfl)

/-! ## The reference is the layer -/

/-- The reference's result at `(p, q)` is the layer of the specification. -/
theorem reference_eq_layer (x0 : (⟨S8192x512, .f32⟩ : BufTy).Contents (Elt Ideal))
    (x1 : (⟨S2x262144, .i32⟩ : BufTy).Contents (Elt Ideal)) (x2 : (⟨S512x512, .f32⟩ : BufTy).Contents (Elt Ideal))
    (x3 : (⟨S512, .f32⟩ : BufTy).Contents (Elt Ideal)) (p : Fin 8192) (q : Fin 512) :
    val_main_v41 (F := Ideal) x0 x1 x2 x3 (ix2 p q) = layer (adj x1) (feat x0) (weight x2) (bias x3) p q := by
  rw [val_main_v41_apply]
  unfold layer
  refine Finset.sum_congr rfl fun j _ => ?_
  have el : lidx_main_v41 (ix2 p q) j = ix2 p j :=
    funext fun a => Fin.ext (by match a with | ⟨0, _⟩ => rfl | ⟨1, _⟩ => rfl)
  have er : ridx_main_v41 (ix2 p q) j = ix2 j q :=
    funext fun a => Fin.ext (by match a with | ⟨0, _⟩ => rfl | ⟨1, _⟩ => rfl)
  rw [el, er, normalised_stage, affine_stage]

/-- The same as one function of the index. -/
theorem reference_eq_layer_fun (x0 : (⟨S8192x512, .f32⟩ : BufTy).Contents (Elt Ideal))
    (x1 : (⟨S2x262144, .i32⟩ : BufTy).Contents (Elt Ideal)) (x2 : (⟨S512x512, .f32⟩ : BufTy).Contents (Elt Ideal))
    (x3 : (⟨S512, .f32⟩ : BufTy).Contents (Elt Ideal)) :
    val_main_v41 (F := Ideal) x0 x1 x2 x3
      = fun i => layer (adj x1) (feat x0) (weight x2) (bias x3) (i 0) (i 1) := by
  funext i
  obtain ⟨p, q, rfl⟩ : ∃ (p : Fin 8192) (q : Fin 512), i = ix2 p q := ⟨i 0, i 1, eq_ix2 i⟩
  exact reference_eq_layer x0 x1 x2 x3 p q

end Cert.ReferenceIdeal.RefValue

end
-- ==== Proof.RefKernelAdj.lean ====
/-
  The other program's adjacency is the reference's. It builds the same integer index array from the edge list
  (its integer operations are the reference's, one for one), scatters the 16-bit word for `1` into an array of the
  16-bit word for `0` through a record of the same dimension numbers, and widens the result to 32 bits. At the
  extended reals the widening is the identity and the two pairs of words denote the same `0` and `1`, so the
  array is the reference's scatter stage.
-/
import proofs.«173548_j19645180412416_2_alg».proof.Proof.RefValue
import proofs.«173548_j19645180412416_2_alg».proof.Proof.Gen.KernelIdeal
import Idealize.ShloMosaic.Lib.Pipeline.Value

noncomputable section

namespace Cert.KernelIdeal.HostAdj

open Cert.KernelIdeal Cert.KernelIdeal.Gen Idealize.ShloMosaic Idealize.ShloMosaic.ValueIdx
open Cert.GcnSpec Cert.ReferenceIdeal.RefValue

/-! ## The scatter of the 16-bit words -/

/-- The two programs' scatter records have the same dimension numbers: they are one record. -/
theorem scatterDims_eq :
    Cert.KernelIdeal.scatter_S8192x8192_S270336x2_S270336_n_01_01_1
      = Cert.ReferenceIdeal.scatter_S8192x8192_S270336x2_S270336_n_01_01_1 := rfl

/-- The adjacency as this program builds it from an index array: the 16-bit scatter, widened. -/
def adjK (idx : (⟨S270336x2, .i32⟩ : BufTy).Contents (Elt Ideal)) : (⟨S8192x8192, .f32⟩ : BufTy).Contents (Elt Ideal) :=
  extf .f32
    (Host.scatter scatter_S8192x8192_S270336x2_S270336_n_01_01_1 (fun _ b => b)
      (broadcastInDim S8192x8192 ![] bcast_S_S8192x8192 (constant (F := Ideal) S_ .bf16 0x0000#16)) idx
      (broadcastInDim S270336 ![] bcast_S_S270336 (constant (F := Ideal) S_ .bf16 0x3F80#16)))
    bitsLt_bf16_f32

/-- It is the scatter of `1` into `0`s of the reference, over the same index array. -/
theorem adjK_eq_scatterSet (idx : (⟨S270336x2, .i32⟩ : BufTy).Contents (Elt Ideal)) :
    adjK idx = scatterSet (Ideal.ofBits .f32 0x00000000#32) (Ideal.ofBits .f32 0x3F800000#32) idx := by
  have hz : broadcastInDim S8192x8192 ![] bcast_S_S8192x8192 (constant (F := Ideal) S_ .bf16 0x0000#16)
      = fun _ => Ideal.ofBits .f32 0x00000000#32 :=
    funext fun i => by
      rw [broadcastInDim_apply _ bcast_S_S8192x8192 _ i (fun a => a.elim0) (fun a => a.elim0)]
      exact zero_bf16_eq_zero_f32
  have ho : broadcastInDim S270336 ![] bcast_S_S270336 (constant (F := Ideal) S_ .bf16 0x3F80#16)
      = fun _ => Ideal.ofBits .f32 0x3F800000#32 :=
    funext fun i => by
      rw [broadcastInDim_apply _ bcast_S_S270336 _ i (fun a => a.elim0) (fun a => a.elim0)]
      exact one_bf16_eq_one_f32
  funext i
  unfold adjK scatterSet
  rw [extf_apply, hz, ho, scatterDims_eq]

/-! ## The index array -/

/-- The edges' end points on one side (row `r` of the edge list), then the 8192 self-loops. -/
def endsK (x1 : (⟨S2x262144, .i32⟩ : BufTy).Contents (Elt Ideal)) (r : Fin 2 → Nat)
    (h : S2x262144.Slices r S1x262144) : (⟨S270336, .i32⟩ : BufTy).Contents (Elt Ideal) :=
  concatenate S270336 0
    [⟨S262144, shapeCast _ (extractStridedSlice S1x262144 r x1 h) shapeCasts_S1x262144_S262144⟩,
     ⟨S8192, iotaInDim S8192 32 0⟩] concatenates_S262144_S8192_S270336_d0

/-- A negative index counts from the end: `v + 8192` where `v < 0`. -/
def wrapK (v : (⟨S270336, .i32⟩ : BufTy).Contents (Elt Ideal)) : (⟨S270336, .i32⟩ : BufTy).Contents (Elt Ideal) :=
  select (cmpi .slt v (broadcastInDim S270336 ![] bcast_S_S270336 (constantI S_ 32 0#32)))
    (addi v (broadcastInDim S270336 ![] bcast_S_S270336 (constantI S_ 32 8192#32))) v

/-- The index array this program builds from the edge list `x1`: the wrapped rows beside the wrapped columns. -/
def edgeIndexK (x1 : (⟨S2x262144, .i32⟩ : BufTy).Contents (Elt Ideal)) : (⟨S270336x2, .i32⟩ : BufTy).Contents (Elt Ideal) :=
  concatenate S270336x2 1
    [⟨S270336x1, broadcastInDim S270336x1 ![0] bcast_S270336_S270336x1_0
        (wrapK (endsK x1 ![0, 0] slices_S2x262144_S1x262144_0_0))⟩,
     ⟨S270336x1, broadcastInDim S270336x1 ![0] bcast_S270336_S270336x1_0
        (wrapK (endsK x1 ![1, 0] slices_S2x262144_S1x262144_1_0))⟩]
    concatenates_S270336x1_S270336x1_S270336x2_d1

/-- It is the reference's index array. -/
theorem edgeIndexK_eq (x1 : (⟨S2x262144, .i32⟩ : BufTy).Contents (Elt Ideal)) : edgeIndexK x1 = edgeIndex x1 := rfl

/-- So this program's adjacency, built from the edge list, is the reference's at every place. -/
theorem adjK_edgeIndexK (x1 : (⟨S2x262144, .i32⟩ : BufTy).Contents (Elt Ideal)) (p j : Fin 8192) :
    adjK (edgeIndexK x1) (ix2 p j) = adj x1 p j := by
  rw [adjK_eq_scatterSet, edgeIndexK_eq, adj_eq_scatterSet]

/-- The same, as arrays. -/
theorem adjK_edgeIndexK_fun (x1 : (⟨S2x262144, .i32⟩ : BufTy).Contents (Elt Ideal)) :
    adjK (edgeIndexK x1) = Cert.ReferenceIdeal.ReadP.val_main_v22 (F := Ideal) x1 := by
  funext i
  obtain ⟨p, j, rfl⟩ : ∃ (p j : Fin 8192), i = ix2 p j := ⟨i 0, i 1, eq_ix2 i⟩
  exact adjK_edgeIndexK x1 p j

/-! ## The degree and the normalising vector -/

/-- The row sums of an adjacency array, as this program takes them. -/
def degK (a : (⟨S8192x8192, .f32⟩ : BufTy).Contents (Elt Ideal)) : (⟨S8192, .f32⟩ : BufTy).Contents (Elt Ideal) :=
  Host.reduceAdd a (constant (F := Ideal) S_ .f32 0x00000000#32) reducesTo_S8192x8192_S8192_d1 h_S_

/-- The normalising vector of an adjacency array, as this program computes it: the inverse square root of the
    degree floored at the float nearest `1e-30`, selected where the degree is positive, else the zero word. -/
def normK (a : (⟨S8192x8192, .f32⟩ : BufTy).Contents (Elt Ideal)) : (⟨S8192, .f32⟩ : BufTy).Contents (Elt Ideal) :=
  select
    (cmpf (F := Ideal) .ogt (degK a) (broadcastInDim S8192 ![] bcast_S_S8192 (constant (F := Ideal) S_ .f32 0x00000000#32)))
    (Host.rsqrt (maximumf (degK a) (broadcastInDim S8192 ![] bcast_S_S8192 (constant (F := Ideal) S_ .f32 0x0DA24260#32))))
    (broadcastInDim S8192 ![] bcast_S_S8192 (id (constant (F := Ideal) S_ .f32 0x00000000#32)))

/-- At row `p` it is the specification's factor of the reference's adjacency. -/
theorem normK_apply (x1 : (⟨S2x262144, .i32⟩ : BufTy).Contents (Elt Ideal)) (p : Fin 8192) :
    normK (adjK (edgeIndexK x1)) (ix1 p) = normFactor (adj x1) p := by
  rw [adjK_edgeIndexK_fun]
  exact norm_stage x1 p

end Cert.KernelIdeal.HostAdj

end
-- ==== Proof.KernelHost.lean ====
/-
  What the two calls are entered with, read at one element. The adjacency array the aggregation reads is the
  scatter stage of the reference at every place, and the column of factors either call reads holds, at row `n`,
  the specification's factor of that adjacency: the host operations that build them are the reference's, one for
  one, but for the words for `0` and `1` being scattered in sixteen bits and widened afterwards.
-/
import proofs.«173548_j19645180412416_2_alg».proof.Proof.KernelRun
import proofs.«173548_j19645180412416_2_alg».proof.Proof.RefKernelAdj
import Idealize.ShloMosaic.Lib.StableHlo.Run
import Idealize.ShloMosaic.Lib.Pipeline.Value

set_option maxRecDepth 16384

noncomputable section

namespace Cert.KernelIdeal.HostValue

open Cert.KernelIdeal Cert.KernelIdeal.Gen Cert.KernelIdeal.Run Cert.KernelIdeal.HostAdj
open Idealize.ShloMosaic Idealize.ShloMosaic.TcCoe Idealize.ShloMosaic.ValueIdx Idealize.ShloMosaic.StableHlo Idealize.SL.Sem
open Cert.GcnSpec Cert.ReferenceIdeal.RefValue

variable (m : (ℓ : Loc nD τ sig) → Buf (Elt Ideal) ℓ) (ρ : Dev nD → PrngReg)

/-! ## The first stretch of host operations, and the guard after it, at the arrays read later -/

set_option maxHeartbeats 2000000 in
/-- The sixteen-bit scatter after the first stretch: ones into zeros at the places the edge list names. -/
theorem after0_scatter (c : Dev nD) :
    (StableHlo.after hostOps0 (W0 m ρ c) (Proc.devRef .tc main_v22) : S8192x8192.Idx → EReal)
      = Host.scatter scatter_S8192x8192_S270336x2_S270336_n_01_01_1 (fun _ b => b)
          (broadcastInDim S8192x8192 ![] bcast_S_S8192x8192 (constant (F := Ideal) S_ .bf16 0x0000#16))
          (edgeIndexK (m ((c : Thread nD τ).loc main_arg1)))
          (broadcastInDim S270336 ![] bcast_S_S270336 (constant (F := Ideal) S_ .bf16 0x3F80#16)) := by
  after_results_simp
  rfl

set_option maxHeartbeats 4000000 in
/-- The vector of factors after the guard: the normalising vector of the widened scatter. -/
theorem after01_norm (c : Dev nD) :
    (StableHlo.after hostOps0_1 (StableHlo.after hostOps0 (W0 m ρ c)) (Proc.devRef .tc main_v30) : S8192.Idx → EReal)
      = normK (adjK (edgeIndexK (m ((c : Thread nD τ).loc main_arg1)))) := by
  after_results_simp
  rfl

/-! ## The two reshapes of the vector of factors to a column -/

/-- A vector of 8192 recast as a column reads, at `(n, 0)`, the vector at `n`. -/
theorem col_of_vec {α : Type} (v : S8192.Idx → α) (n : Fin 8192) :
    shapeCast S8192x1 v shapeCasts_S8192_S8192x1 (ix2 n (0 : Fin 1)) = v (ix1 n) :=
  shapeCast_apply v shapeCasts_S8192_S8192x1 _ _ (by
    rw [Shape.rowMajor_val_two, Shape.rowMajor_val_one]
    show n.val = n.val * 1 + 0
    omega)

/-- The reshape before the linear call, over any contents. -/
theorem after_reshape_first (V : Valuation τ sig (Elt Ideal)) :
    (StableHlo.after hostOps0_2 V (Proc.devRef .tc main_v31) : S8192x1.Idx → EReal)
      = shapeCast S8192x1 (V (Proc.devRef .tc main_v30) : S8192.Idx → EReal) shapeCasts_S8192_S8192x1 := by
  after_results
  rfl

/-- The reshape before the aggregation, over any contents. -/
theorem after_reshape_second (V : Valuation τ sig (Elt Ideal)) :
    (StableHlo.after hostOps1 V (Proc.devRef .tc main_v33) : S8192x1.Idx → EReal)
      = shapeCast S8192x1 (V (Proc.devRef .tc main_v30) : S8192.Idx → EReal) shapeCasts_S8192_S8192x1 := by
  after_results
  rfl

/-! ## What the calls are entered with -/

/-- Widening the sixteen-bit scatter changes no element. -/
theorem adjK_apply (idx : (⟨S270336x2, .i32⟩ : BufTy).Contents (Elt Ideal)) (i : S8192x8192.Idx) :
    adjK idx i
      = Host.scatter scatter_S8192x8192_S270336x2_S270336_n_01_01_1 (fun _ b => b)
          (broadcastInDim S8192x8192 ![] bcast_S_S8192x8192 (constant (F := Ideal) S_ .bf16 0x0000#16)) idx
          (broadcastInDim S270336 ![] bcast_S_S270336 (constant (F := Ideal) S_ .bf16 0x3F80#16)) i := by
  unfold adjK
  exact extf_apply _ _ i

/-- The adjacency the aggregation reads is the reference's, at every place. -/
theorem entry_adj (c : Dev nD) (n j : Fin 8192) :
    (V5 m ρ c main_v22 : S8192x8192.Idx → EReal) (ix2 n j) = adj (m ((c : Thread nD τ).loc main_arg1)) n j :=
  (congrFun (V5_main_v22 m ρ c) (ix2 n j)).trans <|
    (congrFun (after0_scatter m ρ c) (ix2 n j)).trans <|
      (adjK_apply (edgeIndexK (m ((c : Thread nD τ).loc main_arg1))) (ix2 n j)).symm.trans
        (adjK_edgeIndexK (m ((c : Thread nD τ).loc main_arg1)) n j)

/-- The column the linear call reads holds the factor of row `n`. -/
theorem entry_factor_first (c : Dev nD) (n : Fin 8192) :
    (V3 m ρ c main_v31 : S8192x1.Idx → EReal) (ix2 n (0 : Fin 1))
      = normFactor (adj (m ((c : Thread nD τ).loc main_arg1))) n :=
  (congrFun (after_reshape_first (W2 m ρ c)) (ix2 n (0 : Fin 1))).trans <|
    (col_of_vec _ n).trans <| (congrFun (after01_norm m ρ c) (ix1 n)).trans (normK_apply _ n)

/-- So does the column the aggregation reads: the linear call leaves the vector of factors as it was. -/
theorem entry_factor_second (c : Dev nD) (n : Fin 8192) :
    (V5 m ρ c main_v33 : S8192x1.Idx → EReal) (ix2 n (0 : Fin 1))
      = normFactor (adj (m ((c : Thread nD τ).loc main_arg1))) n := by
  refine (congrFun (after_reshape_second (W4 m ρ c)) (ix2 n (0 : Fin 1))).trans ?_
  refine (col_of_vec _ n).trans ?_
  rw [W4_main_v30]
  exact (congrFun (after01_norm m ρ c) (ix1 n)).trans (normK_apply _ n)

end Cert.KernelIdeal.HostValue

end
-- ==== Proof.KernelPayloads.lean ====
/-
  The two kernels' arithmetic read at one element, at the extended reals.

  The linear kernel's stored value at `(p, q)` of a 1024-row block is the affine map of the block's features,
  `∑ k, x p k * w q k + b q`, scaled by the block's factor at row `p`: the format changes are the identity, the
  transposed weight reads `w q k` at `(k, q)`, the product into the zero accumulator is the plain sum over the
  512 contracted positions, and the two broadcasts read the bias at `q` and the factor at `(p, 0)`.

  The aggregation kernel stores three values: the zero word (the accumulator's start); the accumulator plus the
  product of a 1024 × 2048 adjacency tile with 2048 rows of scaled features, `acc p q + ∑ j, a p j * h j q`; and at the
  last step the accumulator scaled by the tile's factor at row `p`.
-/
import proofs.«173548_j19645180412416_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The two contractions' operand indices -/

theorem lin_lhs_0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

theorem lin_rhs_1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

theorem agg_lhs_0 (i : S1024x512.Idx) (c : dot_S1024x2048_S2048x512_S1024x512_1_0_0_1_n_n.contr.Idx) :
    (dot_S1024x2048_S2048x512_S1024x512_1_0_0_1_n_n.lhsIdx i c 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl

theorem agg_rhs_1 (i : S1024x512.Idx) (c : dot_S1024x2048_S2048x512_S1024x512_1_0_0_1_n_n.contr.Idx) :
    (dot_S1024x2048_S2048x512_S1024x512_1_0_0_1_n_n.rhsIdx i c 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-! ## The pieces at an element -/

/-- The product of a 1024 × 512 block with a 512 × 512 matrix, into the zero accumulator, at `(p, q)`. -/
theorem lin_matmul_apply (l : FVec Ideal S1024x512 .bf16) (r : FVec Ideal S512x512 .bf16) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  simp only [matmul]
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q)
      ((contrEquiv1 dot_S1024x512_S512x512_S1024x512_1_0_0_1_n_n 512 rfl rfl).symm k) = ix2 p k :=
    funext fun a => Fin.ext (by
      match a with
      | ⟨0, _⟩ => exact lin_lhs_0 _ _
      | ⟨1, _⟩ => exact (dot_S1024x512_S512x512_S1024x512_1_0_0_1_n_n.lhsIdx_val_of_single rfl _ _).trans hk)
  have er : dot_S1024x512_S512x512_S1024x512_1_0_0_1_n_n.rhsIdx (ix2 p q)
      ((contrEquiv1 dot_S1024x512_S512x512_S1024x512_1_0_0_1_n_n 512 rfl rfl).symm k) = ix2 k q :=
    funext fun a => Fin.ext (by
      match a with
      | ⟨0, _⟩ => exact (dot_S1024x512_S512x512_S1024x512_1_0_0_1_n_n.rhsIdx_val_of_single rfl _ _).trans hk
      | ⟨1, _⟩ => exact lin_rhs_1 _ _)
  rw [el, er]

/-- The product of a 1024 × 2048 tile with a 2048 × 512 block, into the zero accumulator, at `(p, q)`. -/
theorem agg_matmul_apply (l : FVec Ideal S1024x2048 .bf16) (r : FVec Ideal S2048x512 .bf16) (p : Fin 1024) (q : Fin 512) :
    matmul dot_S1024x2048_S2048x512_S1024x512_1_0_0_1_n_n none l r (constant (F := Ideal) S1024x512 .f32 0x00000000#32) (ix2 p q)
      = ∑ j : Fin 2048, l (ix2 p j) * r (ix2 j q) := by
  simp only [matmul]
  rw [Ideal.matmul_constant_zero_apply,
    ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q)
      ((contrEquiv1 dot_S1024x2048_S2048x512_S1024x512_1_0_0_1_n_n 2048 rfl rfl).symm k) = ix2 p k :=
    funext fun a => Fin.ext (by
      match a with
      | ⟨0, _⟩ => exact agg_lhs_0 _ _
      | ⟨1, _⟩ => exact (dot_S1024x2048_S2048x512_S1024x512_1_0_0_1_n_n.lhsIdx_val_of_single rfl _ _).trans hk)
  have er : dot_S1024x2048_S2048x512_S1024x512_1_0_0_1_n_n.rhsIdx (ix2 p q)
      ((contrEquiv1 dot_S1024x2048_S2048x512_S1024x512_1_0_0_1_n_n 2048 rfl rfl).symm k) = ix2 k q :=
    funext fun a => Fin.ext (by
      match a with
      | ⟨0, _⟩ => exact (dot_S1024x2048_S2048x512_S1024x512_1_0_0_1_n_n.rhsIdx_val_of_single rfl _ _).trans hk
      | ⟨1, _⟩ => exact agg_rhs_1 _ _)
  rw [el, er]

/-- The bias as a row broadcast over the block: at `(p, q)` it is the bias at `q`. -/
theorem bias_row_apply (v : FVec Ideal S512 .f32) (p : Fin 1024) (q : Fin 512) :
    broadcastTo S1024x512 (shapeCast S1x512 v shapeCasts_S512_S1x512) broadcasts_S1x512_S1024x512 (ix2 p q) = v (ix1 q) :=
  (broadcastTo_1b_ab_apply _ broadcasts_S1x512_S1024x512 p q).trans
    (shapeCast_a_1a_apply v shapeCasts_S512_S1x512 0 q)

/-- The factor as a column broadcast over the block: at `(p, q)` it is the factor at `(p, 0)`. -/
theorem factor_col_apply (v : FVec Ideal S1024x1 .f32) (p : Fin 1024) (q : Fin 512) :
    broadcastTo S1024x512 (shapeCast S1024x1 v shapeCasts_S1024x1_S1024x1) broadcasts_S1024x1_S1024x512 (ix2 p q)
      = v (ix2 p (0 : Fin 1)) := by
  rw [shapeCast_self]
  refine broadcastTo_apply v broadcasts_S1024x1_S1024x512 (ix2 p q) (ix2 p (0 : Fin 1)) fun ax => ?_
  match ax with
  | ⟨0, _⟩ =>
    show p.val = if (1024 : ℕ) = 1 then 0 else p.val
    rw [if_neg (by decide)]
  | ⟨1, _⟩ =>
    show (0 : Fin 1).val = if (1 : ℕ) = 1 then 0 else q.val
    rw [if_pos rfl]; rfl

/-! ## The linear kernel's stored value -/

/-- At `(p, q)`: the affine map of row `p` of the block, scaled by the block's factor at row `p`. -/
theorem k0_pay1_apply (v0 : Vec Ideal S1024x512 .f32) (v2 : Vec Ideal S512x512 .f32) (v6 : Vec Ideal S512 .f32)
    (v10 : Vec Ideal S1024x1 .f32) (p : Fin 1024) (q : Fin 512) :
    k0_pay1 (F := Ideal) v0 v2 v6 v10 (ix2 p q)
      = ((∑ k : Fin 512, v0 (ix2 p k) * v2 (ix2 q k)) + v6 (ix1 q)) * v10 (ix2 p (0 : Fin 1)) := by
  unfold k0_pay1
  refine congrArg₂ (· * ·) (congrArg₂ (· + ·) ?_ (bias_row_apply v6 p q)) (factor_col_apply v10 p q)
  refine (lin_matmul_apply _ _ p q).trans (Finset.sum_congr rfl fun k _ => ?_)
  exact congrArg (v0 (ix2 p k) * ·) (transpose_ix2_apply _ transposes_S512x512_p1_0_S512x512 k q)

/-! ## The aggregation kernel's stored values -/

/-- The accumulator's start: the zero word everywhere. -/
theorem k1_pay1_apply (p : Fin 1024) (q : Fin 512) :
    k1_pay1 (F := Ideal) (ix2 p q) = Ideal.ofBits .f32 0x00000000#32 := by
  unfold k1_pay1
  exact congrFun (shapeCast_self _ _) (ix2 p q)

/-- … which denotes `0`. -/
theorem k1_pay1_apply_zero (p : Fin 1024) (q : Fin 512) : k1_pay1 (F := Ideal) (ix2 p q) = 0 :=
  (k1_pay1_apply p q).trans Ideal.ofBits_zero_f32

/-- One step: the accumulator plus the tile's product with the 2048 rows of scaled features. -/
theorem k1_pay2_apply (v3 : Vec Ideal S1024x2048 .bf16) (v8 : Vec Ideal S2048x512 .bf16) (v10 : Vec Ideal S1024x512 .f32)
    (p : Fin 1024) (q : Fin 512) :
    k1_pay2 (F := Ideal) v3 v8 v10 (ix2 p q) = v10 (ix2 p q) + ∑ j : Fin 2048, v3 (ix2 p j) * v8 (ix2 j q) := by
  unfold k1_pay2
  refine (congrFun (shapeCast_self _ _) (ix2 p q)).trans ?_
  refine congrArg (v10 (ix2 p q) + ·) ?_
  rw [shapeCast_self, shapeCast_self]
  exact agg_matmul_apply v3 v8 p q

/-- The last step: the accumulator scaled by the tile's factor at row `p`. -/
theorem k1_pay3_apply (v19 : Vec Ideal S1024x512 .f32) (v20 : Vec Ideal S1024x1 .f32) (p : Fin 1024) (q : Fin 512) :
    k1_pay3 (F := Ideal) v19 v20 (ix2 p q) = v19 (ix2 p q) * v20 (ix2 p (0 : Fin 1)) := by
  unfold k1_pay3
  exact congrArg (v19 (ix2 p q) * ·) (factor_col_apply v20 p q)

end Cert.KernelIdeal.Payload

end
-- ==== Proof.Region0Value.lean ====
import proofs.«173548_j19645180412416_2_alg».proof.Proof.Region0
import proofs.«173548_j19645180412416_2_alg».proof.Proof.KernelPayloads
import Idealize.ShloMosaic.Lib.Pipeline.Value
import Idealize.ShloMosaic.Lib.ValueIdx

/-! # The linear layer's result as one array

Block by block the first call leaves, in rows `1024 t … 1024 t + 1023` of its result, the affine map of those
rows of the features scaled by those rows of the degree factor. The eight blocks tile the 8192 rows, so the
array the call leaves is ONE function of the four arrays it read, entry by entry, at the extended reals:

    h[r, j] = ((∑ k, x[r, k] · W[j, k]) + b[j]) · dinv[r, 0] .

The proof reads each block of an input where the result's block says: a block's row `p` is the array's row
`1024 t + p` (for `x`, `dinv` and the result), and `W` and `b` are read whole at every point. -/

noncomputable section

namespace Cert.KernelIdeal.R0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The function -/

/-- The scaled features: row `r` of `x · Wᵀ + b`, times the factor of row `r`. -/
def scaledFeatures (x : Vec Ideal S8192x512 .f32) (w : Vec Ideal S512x512 .f32) (b : Vec Ideal S512 .f32)
    (d : Vec Ideal S8192x1 .f32) : Vec Ideal S8192x512 .bf16 :=
  fun i => ((∑ k : Fin 512, x (ix2 (i 0) k) * w (ix2 (i 1) k)) + b (ix1 (i 1))) * d (ix2 (i 0) (0 : Fin 1))

/-- At explicit coordinates. -/
theorem scaledFeatures_apply (x : Vec Ideal S8192x512 .f32) (w : Vec Ideal S512x512 .f32) (b : Vec Ideal S512 .f32)
    (d : Vec Ideal S8192x1 .f32) (r : Fin 8192) (j : Fin 512) :
    scaledFeatures x w b d (ix2 r j) = ((∑ k : Fin 512, x (ix2 r k) * w (ix2 j k)) + b (ix1 j)) * d (ix2 r (0 : Fin 1)) := rfl

/-! ## One block of it -/

/-- A block whose rows are rows `1024 n + p` of `x` and of `d`, beside all of `w` and `b`, is sent by the body's
    arithmetic to rows `1024 n + p` of the scaled features. -/
theorem pay_block (x0 : Vec Ideal S1024x512 .f32) (x1 : Vec Ideal S512x512 .f32) (x2 : Vec Ideal S512 .f32) (x3 : Vec Ideal S1024x1 .f32)
    (x : Vec Ideal S8192x512 .f32) (w : Vec Ideal S512x512 .f32) (b : Vec Ideal S512 .f32) (d : Vec Ideal S8192x1 .f32)
    (n : ℕ) (hn : n < 8)
    (h0 : ∀ (p : Fin 1024) (k : Fin 512), x0 (ix2 p k) = x (ix2 ⟨1024 * n + p.val, by omega⟩ k))
    (h1 : ∀ (q k : Fin 512), x1 (ix2 q k) = w (ix2 q k))
    (h2 : ∀ q : Fin 512, x2 (ix1 q) = b (ix1 q))
    (h3 : ∀ p : Fin 1024, x3 (ix2 p (0 : Fin 1)) = d (ix2 ⟨1024 * n + p.val, by omega⟩ (0 : Fin 1)))
    (p : Fin 1024) (q : Fin 512) :
    k0_pay1 (F := Ideal) x0 x1 x2 x3 (ix2 p q) = scaledFeatures x w b d (ix2 ⟨1024 * n + p.val, by omega⟩ q) := by
  rw [Payload.k0_pay1_apply, scaledFeatures_apply, h2, h3]
  simp only [h0, h1]

/-! ## Where the blocks sit -/

theorem hz2 : (![0, 0] : Fin 2 → Nat) = fun _ => 0 := funext fun a => by fin_cases a <;> rfl
theorem hz1 : (![0] : Fin 1 → Nat) = fun _ => 0 := funext fun a => by fin_cases a <;> rfl

/-- The block indices over the eight points: the blocks of `x`, of the factor and of the result are the point's
    own, `W` and `b` have one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- There are eight points. -/
theorem pt_lt (t : Fin cfg0.N) : t.val < 8 := lt_of_lt_of_eq t.isLt (show cfg0.N = 8 from N_0)

variable (V : (c : Dev nD) → (b : Ref sig .tc) → Buf (Elt Ideal) ((c : Thread nD τ).loc b))

/-- Row `p` of the block of `x` at point `t` is row `1024 t + p` of `x`. -/
theorem iblk0_x (c : Dev nD) (t : Fin cfg0.N) (p : Fin 1024) (k : Fin 512) :
    (iblk0 V c 0 t : Vec Ideal S1024x512 .f32) (ix2 p k)
      = (V c main_arg0 : Vec Ideal S8192x512 .f32) (ix2 ⟨1024 * t.val + p.val, by have := pt_lt t; omega⟩ k) := by
  obtain ⟨e0, e1, -⟩ := idx_facts t
  show V c main_arg0 (((cfg0.win 0).blk t).view.emb (ix2 p k)) = V c main_arg0 _
  congr 1
  funext a; apply Fin.ext
  match a with
  | ⟨0, _⟩ => show win0_0.index t (0 : Fin 2) * 1024 + 1 * p.val = 1024 * t.val + p.val; omega
  | ⟨1, _⟩ => show win0_0.index t (1 : Fin 2) * 512 + 1 * k.val = k.val; omega

/-- The block of `W` is `W`. -/
theorem iblk0_w (c : Dev nD) (t : Fin cfg0.N) (q k : Fin 512) :
    (iblk0 V c 1 t : Vec Ideal S512x512 .f32) (ix2 q k) = (V c main_arg2 : Vec Ideal S512x512 .f32) (ix2 q k) := by
  obtain ⟨-, -, e0, e1, -⟩ := idx_facts t
  show V c main_arg2 (((cfg0.win 1).blk t).view.emb (ix2 q k)) = V c main_arg2 _
  congr 1
  funext a; apply Fin.ext
  match a with
  | ⟨0, _⟩ => show win0_1.index t (0 : Fin 2) * 512 + 1 * q.val = q.val; omega
  | ⟨1, _⟩ => show win0_1.index t (1 : Fin 2) * 512 + 1 * k.val = k.val; omega

/-- The block of `b` is `b`. -/
theorem iblk0_b (c : Dev nD) (t : Fin cfg0.N) (q : Fin 512) :
    (iblk0 V c 2 t : Vec Ideal S512 .f32) (ix1 q) = (V c main_arg3 : Vec Ideal S512 .f32) (ix1 q) := by
  obtain ⟨-, -, -, -, e0, -⟩ := idx_facts t
  show V c main_arg3 (((cfg0.win 2).blk t).view.emb (ix1 q)) = V c main_arg3 _
  congr 1
  funext a; apply Fin.ext
  match a with
  | ⟨0, _⟩ => show win0_2.index t (0 : Fin 1) * 512 + 1 * q.val = q.val; omega

/-- Row `p` of the block of the factor at point `t` is its row `1024 t + p`. -/
theorem iblk0_d (c : Dev nD) (t : Fin cfg0.N) (p : Fin 1024) :
    (iblk0 V c 3 t : Vec Ideal S1024x1 .f32) (ix2 p (0 : Fin 1))
      = (V c main_v31 : Vec Ideal S8192x1 .f32) (ix2 ⟨1024 * t.val + p.val, by have := pt_lt t; omega⟩ (0 : Fin 1)) := by
  obtain ⟨-, -, -, -, -, e0, e1, -⟩ := idx_facts t
  show V c main_v31 (((cfg0.win 3).blk t).view.emb (ix2 p (0 : Fin 1))) = V c main_v31 _
  congr 1
  funext a; apply Fin.ext
  match a with
  | ⟨0, _⟩ => show win0_3.index t (0 : Fin 2) * 1024 + 1 * p.val = 1024 * t.val + p.val; omega
  | ⟨1, _⟩ => show win0_3.index t (1 : Fin 2) * 1 + 1 * (0 : Fin 1).val = (0 : Fin 1).val; omega

/-! ## What a point writes back, and the whole array -/

/-- The array the call's result ends at. -/
abbrev hArr (c : Dev nD) : Vec Ideal S8192x512 .bf16 :=
  scaledFeatures (V c main_arg0) (V c main_arg2) (V c main_arg3) (V c main_v31)

/-- WHAT POINT `t` WRITES BACK is block `t` of the scaled features. -/
theorem flushed_eq (c : Dev nD) (t : Fin cfg0.N) :
    (dat0 V c).flushed 4 t = ((cfg0.win 4).blk t).view.read (Elt Ideal) (hArr V c) := by
  show (cfg0.win 4).cut (grid0.coords t) ((dat0 V c).after 4 t) = _
  rw [after0_4]
  unfold out0_4
  rw [View.canon_unit_zero hz2]
  simp only [View.ld_unit_zero (S := S1024x512) hz2, View.ld_unit_zero (S := S512x512) hz2,
    View.ld_unit_zero (S := S512) hz1, View.ld_unit_zero (S := S1024x1) hz2]
  have ht : t.val < 8 := pt_lt t
  obtain ⟨-, -, -, -, -, -, -, e0, e1⟩ := idx_facts t
  have key : ∀ j : S1024x512.Idx,
      k0_pay1 (F := Ideal) (iblk0 V c 0 t) (iblk0 V c 1 t) (iblk0 V c 2 t) (iblk0 V c 3 t) j
        = hArr V c (((cfg0.win 4).blk t).view.emb j) := by
    intro j
    obtain ⟨p, q, rfl⟩ : ∃ (p : Fin 1024) (q : Fin 512), j = ix2 p q := ⟨j 0, j 1, eq_ix2 j⟩
    refine (pay_block _ _ _ _ (V c main_arg0) (V c main_arg2) (V c main_arg3) (V c main_v31) t.val ht
      (iblk0_x V c t) (iblk0_w V c t) (iblk0_b V c t) (iblk0_d V c t) p q).trans ?_
    refine congrArg (hArr V c) ?_
    funext a; apply Fin.ext
    match a with
    | ⟨0, _⟩ => show 1024 * t.val + p.val = win0_4.index t (0 : Fin 2) * 1024 + 1 * p.val; omega
    | ⟨1, _⟩ => show q.val = win0_4.index t (1 : Fin 2) * 512 + 1 * q.val; omega
  funext j
  exact key j

/-- An entry of the array is in point `t`'s block iff each coordinate is in the block's range on its axis. -/
theorem mem_blk4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v32).slice (win0_4.rect t)).set ↔ _
  rw [View.set_slice_whole, Rect.mem_set_unit]
  exact Iff.rfl

/-- Row `r` is in the block of point `r / 1024`, and every point writes back: the blocks cover the array. -/
theorem cover4 (i : S8192x512.Idx) : ∃ t : Fin cfg0.N, (cfg0.win 4).flush t = true ∧ i ∈ ((cfg0.win 4).blk t).view.set := by
  have hi0 : (i 0).val < 8192 := idx2_lt0 i
  have hi1 : (i 1).val < 512 := idx2_lt1 i
  refine ⟨⟨(i 0).val / 1024, by rw [show cfg0.N = 8 from N_0]; omega⟩, flush0_4 _, ?_⟩
  rw [mem_blk4]
  obtain ⟨-, -, -, -, -, -, -, e0, e1⟩ := idx_facts ⟨(i 0).val / 1024, by rw [show cfg0.N = 8 from N_0]; omega⟩
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 512 ≤ (i 1).val ∧ (i 1).val < win0_4.index _ (1 : Fin 2) * 512 + 512
    rw [e1]; omega

/-- THE ARRAY the linear layer leaves: the scaled features of the arrays it was entered with. -/
theorem final0 (c : Dev nD) :
    (dat0 V c).arrAt 4 cfg0.N = scaledFeatures (V c main_arg0) (V c main_arg2) (V c main_arg3) (V c main_v31) :=
  (dat0 V c).arrAt_eq_of_cover 4 (hArr V c) (fun t _ => flushed_eq V c t) cover4

end Cert.KernelIdeal.R0

end
-- ==== Proof.Region1Pieces.lean ====
/-
  What the aggregation kernel's three cases leave, as the body's arithmetic of the blocks they read. With x0 the adjacency
  tile of the point, x1 the row normaliser's block, x2 the resident features, and rowsOf i the rectangle of rows
  2048 k .. 2048 k + 2047 of the features (k the point's inner coordinate):
    k = 0     : the accumulator ends at  pay2 x0 (x2 through rowsOf) zero        (zero: the broadcast of the zero word)
    k = 1, 2  : at  pay2 x0 (x2 through rowsOf) xs     (xs what the position before left)
    k = 3     : likewise, and the output buffer ends at  pay3 (that) x1
  where pay2 a h s = s + a · h (the matrix product accumulated) and pay3 s d = s · (d broadcast along the channels).
-/
import proofs.«173548_j19645180412416_2_alg».proof.Proof.Region1
import Idealize.ShloMosaic.Lib.Pipeline.Value
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

/-- Rows 2048 k .. 2048 k + 2047 of the resident features, as the body loads them at a point with inner coordinate k. -/
abbrev rowsOf (i : grid1.Coords) : Rect S8192x512 := Rect.unit (s := S8192x512) (k1_off1 i) S2048x512.size (k1_off1_inb i)

/-- k = 1, 2: the one covering store's payload, its loads reading the whole buffers. -/
theorem accMid_eq (c : Dev nD) (t : Fin cfg1.N) (h0 : ¬t.val % 4 = 0) (h3 : ¬t.val % 4 = 3) (xs : Vec F S1024x512 .f32) :
    accMid V c t h0 h3 xs = k1_pay2 (iblk V c 0 t) (View.ld (iblk V c 2 t) (rowsOf (grid1.coords t))) xs := by
  unfold accMid
  rw [View.read_writes_eq_canon _ _ _ (scoverMid V c t h0 h3 xs)]
  unfold runMid
  dsimp only
  rw [View.canon_unit_zero hz2]
  simp only [View.readAt_eq_ld, (hs_0 t).read_unread, (hs_1 t).read_unread, (hs_2 t).read_unread, (Memref.isWhole_whole cc1_scratch0).read_unread, View.ld_unit_zero (S := S1024x2048) hz2, View.ld_unit_zero (S := S1024x512) hz2, View.ld_unit_zero (S := S1024x1) hz2]
  rfl

/-- k = 3, the accumulator: the same. -/
theorem accLast_eq (c : Dev nD) (t : Fin cfg1.N) (h0 : ¬t.val % 4 = 0) (h3 : t.val % 4 = 3) (xs : Vec F S1024x512 .f32) :
    accLast V c t h0 h3 xs = k1_pay2 (iblk V c 0 t) (View.ld (iblk V c 2 t) (rowsOf (grid1.coords t))) xs := by
  unfold accLast
  rw [View.read_writes_eq_canon _ _ _ (scoverLast V c t h0 h3 xs)]
  unfold runLast
  dsimp only
  sl_unfold_words
  rw [View.canon_unit_zero hz2]
  simp only [View.readAt_eq_ld, (hs_0 t).read_unread, (hs_1 t).read_unread, (hs_2 t).read_unread, (Memref.isWhole_whole cc1_scratch0).read_unread, View.ld_unit_zero (S := S1024x2048) hz2, View.ld_unit_zero (S := S1024x512) hz2, View.ld_unit_zero (S := S1024x1) hz2]
  rfl

/-- k = 3, the output buffer: the accumulator just stored is read back and multiplied by the row normaliser. -/
theorem outLast_eq (c : Dev nD) (t : Fin cfg1.N) (h0 : ¬t.val % 4 = 0) (h3 : t.val % 4 = 3) (xs : Vec F S1024x512 .f32) :
    outLast V c t h0 h3 xs = k1_pay3 (k1_pay2 (iblk V c 0 t) (View.ld (iblk V c 2 t) (rowsOf (grid1.coords t))) xs) (iblk V c 1 t) := by
  unfold outLast
  rw [View.read_writes_eq_canon _ _ _ (coverLast V c t h0 h3 xs)]
  unfold runLast
  dsimp only
  sl_unfold_words
  rw [View.canon_unit_zero hz2, View.readCov_unit_zero (S := S1024x512) _ hz2]
  simp only [View.readAt_eq_ld, (hs_0 t).read_unread, (hs_1 t).read_unread, (hs_2 t).read_unread, (Memref.isWhole_whole cc1_scratch0).read_unread, View.ld_unit_zero (S := S1024x2048) hz2, View.ld_unit_zero (S := S1024x512) hz2, View.ld_unit_zero (S := S1024x1) hz2]
  rfl

/-- k = 0: the zero block is stored, read back, and the first partial product added to it. -/
theorem accFirst_eq (c : Dev nD) (t : Fin cfg1.N) (h0 : t.val % 4 = 0) :
    accFirst V c t h0 = k1_pay2 (iblk V c 0 t) (View.ld (iblk V c 2 t) (rowsOf (grid1.coords t))) (k1_pay1 (F := F)) := by
  unfold accFirst
  dsimp only
  rw [View.read_writes_eq_canon _ _ _ (scoverFirst V c t h0)]
  unfold runFirst
  dsimp only
  sl_unfold_words
  rw [View.canon_cons_unit_zero (S := S1024x512) hz2, View.readCov_unit_zero (S := S1024x512) _ hz2]
  simp only [View.readAt_eq_ld, (hs_0 t).read_unread, (hs_1 t).read_unread, (hs_2 t).read_unread, (Memref.isWhole_whole cc1_scratch0).read_unread, View.ld_unit_zero (S := S1024x2048) hz2, View.ld_unit_zero (S := S1024x512) hz2, View.ld_unit_zero (S := S1024x1) hz2]
  rfl

end Cert.KernelIdeal.R1

end
-- ==== Proof.SpecRun.lean ====
/-
  The running total over the four column blocks as a recursion on the block number, for an induction over the
  blocks, and the output rows in tiles of 1024: row `p` of tile `i` is row `1024 * i + p` of the 8192.
-/
import proofs.«173548_j19645180412416_2_alg».proof.Proof.SpecGcn

noncomputable section

namespace Cert.GcnSpec

open Idealize.ShloMosaic
open scoped BigOperators

/-! ## The running total, block by block -/

/-- The running total after column block `k`: block `0`'s term added to `0`, then one block's term at a time. -/
def run (S : Fin 4 → EReal) : (k : ℕ) → k < 4 → EReal
  | 0, _ => 0 + S 0
  | k + 1, h => run S k (Nat.lt_of_succ_lt h) + S ⟨k + 1, h⟩

theorem run_zero (S : Fin 4 → EReal) (h : 0 < 4) : run S 0 h = 0 + S 0 := rfl

theorem run_succ (S : Fin 4 → EReal) (k : ℕ) (h : k + 1 < 4) :
    run S (k + 1) h = run S k (Nat.lt_of_succ_lt h) + S ⟨k + 1, h⟩ := rfl

/-- After the last block it is the left-nested sum of the four terms from `0`. -/
theorem run_three (S : Fin 4 → EReal) (h : 3 < 4) : run S 3 h = (((0 + S 0) + S 1) + S 2) + S 3 := rfl

/-! ## Output rows in tiles of 1024 -/

/-- Row `p` of tile `i`: the row `1024 * i + p` of the 8192. -/
def rowOf (i : Fin 8) (p : Fin 1024) : Fin 8192 :=
  ⟨1024 * i.val + p.val, by have := i.isLt; have := p.isLt; omega⟩

theorem rowOf_val (i : Fin 8) (p : Fin 1024) : (rowOf i p).val = 1024 * i.val + p.val := rfl

/-! ## The blocks' terms of the layer -/

/-- Column block `k`'s term of output `(r, q)`: the adjacency row against the scaled affine features of the
    block's 2048 rows. -/
def blockTerm (A : Fin 8192 → Fin 8192 → EReal) (X : Fin 8192 → Fin 512 → EReal) (W : Fin 512 → Fin 512 → EReal)
    (b : Fin 512 → EReal) (r : Fin 8192) (q : Fin 512) (k : Fin 4) : EReal :=
  ∑ j : Fin 2048, A r (blockRow k j) * (affine X W b (blockRow k j) q * normFactor A (blockRow k j))

/-- The running total after the last block, times the row's factor, is the layer — at any row … -/
theorem run_mul_eq_layer (A : Fin 8192 → Fin 8192 → EReal) (X : Fin 8192 → Fin 512 → EReal)
    (W : Fin 512 → Fin 512 → EReal) (b : Fin 512 → EReal) (r : Fin 8192) (q : Fin 512) (h : 3 < 4) :
    run (blockTerm A X W b r q) 3 h * normFactor A r = layer A X W b r q := by
  rw [run_three]
  exact running_total_mul_eq_layer A X W b r q

/-- … in particular at row `p` of tile `i`. -/
theorem run_mul_eq_layer_rowOf (A : Fin 8192 → Fin 8192 → EReal) (X : Fin 8192 → Fin 512 → EReal)
    (W : Fin 512 → Fin 512 → EReal) (b : Fin 512 → EReal) (i : Fin 8) (p : Fin 1024) (q : Fin 512) (h : 3 < 4) :
    run (blockTerm A X W b (rowOf i p) q) 3 h * normFactor A (rowOf i p) = layer A X W b (rowOf i p) q :=
  run_mul_eq_layer A X W b (rowOf i p) q h

end Cert.GcnSpec

end
-- ==== Proof.Region1Value.lean ====
/-
  The aggregation kernel's value at the ideal instance. Position n = 4 i + k of the grid is the point (row block i, column
  block k). For a row r = 1024 i + p and a channel q write
      term k = Σ_{j < 2048} adj (r, 2048 k + j) · h (2048 k + j, q)
  (adj the adjacency array the region finds, h the scaled features). After position 4 i + k the accumulator's entry (p, q)
  is the running total  ((0 + term 0) + … ) + term k,  and at k = 3 the output block's entry is that total times the row
  normaliser d (r, 0). The output's blocks (one per i, written back at k = 3) tile the result array, which therefore holds,
  at (r, q), the running total over the four column blocks times d (r, 0).
-/
import proofs.«173548_j19645180412416_2_alg».proof.Proof.Region1Pieces
import proofs.«173548_j19645180412416_2_alg».proof.Proof.KernelPayloads
import proofs.«173548_j19645180412416_2_alg».proof.Proof.SpecRun
import Idealize.ShloMosaic.Lib.ValueIdx
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.GcnSpec Cert.KernelIdeal.Payload

variable (V : (c : Dev nD) → (b : Ref sig .tc) → Buf (Elt Ideal) ((c : Thread nD τ).loc b))

/-! ## The grid, decided once -/

/-- Position t is the point (t / 4, t % 4). -/
theorem coords_facts : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)
/-- The rows of the features the body loads at position t start at 2048 (t % 4). -/
theorem off_facts : ∀ t : Fin cfg1.N, k1_off1 (grid1.coords t) = ![2048 * (t.val % 4), 0] :=
  (by decide +kernel : ∀ t : Fin grid1.N, k1_off1 (grid1.coords t) = ![2048 * (t.val % 4), 0])
/-- The windows' block indices at position t: the adjacency tile (t / 4, t % 4), the normaliser's block (t / 4, 0), the
    features whole, the output block (t / 4, 0). -/
theorem idx0_facts : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_facts : ∀ t : Fin cfg1.N, win1_1.index t 0 = t.val / 4 ∧ win1_1.index t 1 = 0 :=
  (by decide +kernel : ∀ t : Fin grid1.N, win1_1.index t 0 = t.val / 4 ∧ win1_1.index t 1 = 0)
theorem idx2_facts : ∀ t : Fin cfg1.N, win1_2.index t 0 = 0 ∧ win1_2.index t 1 = 0 :=
  (by decide +kernel : ∀ t : Fin grid1.N, win1_2.index t 0 = 0 ∧ win1_2.index t 1 = 0)
theorem idx3_facts : ∀ t : Fin cfg1.N, win1_3.index t 0 = t.val / 4 ∧ win1_3.index t 1 = 0 :=
  (by decide +kernel : ∀ t : Fin grid1.N, win1_3.index t 0 = t.val / 4 ∧ win1_3.index t 1 = 0)

/-! ## The blocks, read at an entry -/

/-- The adjacency tile at position t, entry (p, j): the array's entry (1024 (t / 4) + p, 2048 (t % 4) + j). -/
theorem tile_apply (c : Dev nD) (t : Fin cfg1.N) (p : Fin 1024) (j : Fin 2048) (r jj : Fin 8192)
    (hr : r.val = 1024 * (t.val / 4) + p.val) (hj : jj.val = 2048 * (t.val % 4) + j.val) :
    (iblk V c 0 t : Vec Ideal S1024x2048 .bf16) (ix2 p j) = V c main_v22 (ix2 r jj) := by
  unfold iblk
  rw [View.read_apply]
  show V c main_v22 _ = V c main_v22 _
  refine congrArg (V c main_v22) ?_
  funext a
  apply Fin.ext
  match a with
  | ⟨0, _⟩ => show win1_0.index t 0 * 1024 + 1 * p.val = r.val; rw [(idx0_facts t).1, hr]; omega
  | ⟨1, _⟩ => show win1_0.index t 1 * 2048 + 1 * j.val = jj.val; rw [(idx0_facts t).2, hj]; omega

/-- The normaliser's block at position t, entry (p, 0): the array's entry (1024 (t / 4) + p, 0). -/
theorem norm_apply (c : Dev nD) (t : Fin cfg1.N) (p : Fin 1024) (r : Fin 8192) (hr : r.val = 1024 * (t.val / 4) + p.val) :
    (iblk V c 1 t : Vec Ideal S1024x1 .f32) (ix2 p (0 : Fin 1)) = V c main_v33 (ix2 r (0 : Fin 1)) := by
  unfold iblk
  rw [View.read_apply]
  show V c main_v33 _ = V c main_v33 _
  refine congrArg (V c main_v33) ?_
  funext a
  apply Fin.ext
  match a with
  | ⟨0, _⟩ => show win1_1.index t 0 * 1024 + 1 * p.val = r.val; rw [(idx1_facts t).1, hr]; omega
  | ⟨1, _⟩ => show win1_1.index t 1 * 1 + 1 * 0 = 0; rw [(idx1_facts t).2]

/-- The rows of the features the body loads at position t, entry (j, q): the array's entry (2048 (t % 4) + j, q). -/
theorem rows_apply (c : Dev nD) (t : Fin cfg1.N) (j : Fin 2048) (q : Fin 512) (jj : Fin 8192) (hj : jj.val = 2048 * (t.val % 4) + j.val) :
    View.ld (iblk V c 2 t : Vec Ideal S8192x512 .bf16) (rowsOf (grid1.coords t)) (ix2 j q) = V c main_v32 (ix2 jj q) := by
  unfold iblk View.ld
  rw [View.read_apply]
  show V c main_v32 _ = V c main_v32 _
  refine congrArg (V c main_v32) ?_
  funext a
  apply Fin.ext
  match a with
  | ⟨0, _⟩ =>
    show win1_2.index t 0 * 8192 + 1 * (k1_off1 (grid1.coords t) 0 + 1 * j.val) = jj.val
    rw [(idx2_facts t).1, congrFun (off_facts t) 0, hj]
    show 0 * 8192 + 1 * (2048 * (t.val % 4) + 1 * j.val) = _
    omega
  | ⟨1, _⟩ =>
    show win1_2.index t 1 * 512 + 1 * (k1_off1 (grid1.coords t) 1 + 1 * q.val) = q.val
    rw [(idx2_facts t).2, congrFun (off_facts t) 1]
    show 0 * 512 + 1 * (0 + 1 * q.val) = _
    omega

/-! ## The accumulator after each position -/

/-- The three arrays the region finds, as functions to the extended reals: the adjacency, the scaled features, and
    the row normaliser's column. -/
def adjArr (c : Dev nD) (r j : Fin 8192) : EReal := V c main_v22 (ix2 r j)
def featArr (c : Dev nD) (r : Fin 8192) (q : Fin 512) : EReal := V c main_v32 (ix2 r q)
def normArr (c : Dev nD) (r : Fin 8192) : EReal := V c main_v33 (ix2 r (0 : Fin 1))

/-- Column block k's contribution to the entry (r, q) of the aggregation. -/
def term (c : Dev nD) (r : Fin 8192) (q : Fin 512) (k : Fin 4) : EReal :=
  ∑ j : Fin 2048, adjArr V c r (blockRow k j) * featArr V c (blockRow k j) q

/-- The sum the body adds at position t, entry (p, q), is the contribution of column block t % 4 to row 1024 (t / 4) + p. -/
theorem partial_eq (c : Dev nD) (t : Fin cfg1.N) (p : Fin 1024) (q : Fin 512) (r : Fin 8192) (k : Fin 4)
    (hr : r.val = 1024 * (t.val / 4) + p.val) (hk : k.val = t.val % 4)
    (x0 : Vec Ideal S1024x2048 .bf16) (xh : Vec Ideal S2048x512 .bf16)
    (hx0 : x0 = iblk V c 0 t) (hxh : xh = View.ld (iblk V c 2 t : Vec Ideal S8192x512 .bf16) (rowsOf (grid1.coords t))) :
    (∑ j : Fin 2048, x0 (ix2 p j) * xh (ix2 j q)) = term V c r q k := by
  subst hx0 hxh
  unfold term
  refine Finset.sum_congr rfl fun j _ => ?_
  have hj : (blockRow k j).val = 2048 * (t.val % 4) + j.val := by rw [blockRow_val, hk]
  rw [tile_apply V c t p j r (blockRow k j) hr hj, rows_apply V c t j q (blockRow k j) hj]
  rfl

/-- The running total does not depend on how its length is written. -/
theorem run_congr (S : Fin 4 → EReal) {k k' : ℕ} (h : k = k') (hk : k < 4) (hk' : k' < 4) : run S k hk = run S k' hk' := by
  subst h; rfl

/-- After position n the accumulator's entry (p, q) is the running total of row 1024 (n / 4) + p over column blocks
    0 .. n % 4: by induction on the position, never by enumerating the grid. -/
theorem acc_chain (c : Dev nD) (p : Fin 1024) (q : Fin 512) : ∀ (n : ℕ) (hn : n < cfg1.N) (r : Fin 8192) (hr : r.val = 1024 * (n / 4) + p.val),
    ((outsAt V c n hn).2 (ix2 p q) : EReal) = run (term V c r q) (n % 4) (Nat.mod_lt _ (by decide))
  | 0, hn, r, hr => by
    rw [outsAt_first V c ⟨0, hn⟩ (Nat.zero_mod _)]
    dsimp only
    rw [accFirst_eq]
    refine (k1_pay2_apply _ _ _ p q).trans ?_
    rw [k1_pay1_apply_zero]
    show _ = (0 : EReal) + term V c r q 0
    refine congrArg (fun s => (0 : EReal) + s) ?_
    exact partial_eq V c ⟨0, hn⟩ p q r 0 hr rfl _ _ rfl rfl
  | n + 1, hn, r, hr => by
    by_cases h0 : (n + 1) % 4 = 0
    · rw [outsAt_first V c ⟨n + 1, hn⟩ h0]
      dsimp only
      rw [accFirst_eq]
      refine (k1_pay2_apply _ _ _ p q).trans ?_
      rw [k1_pay1_apply_zero, run_congr (term V c r q) h0 _ (by decide)]
      show _ = (0 : EReal) + term V c r q 0
      refine congrArg (fun s => (0 : EReal) + s) ?_
      exact partial_eq V c ⟨n + 1, hn⟩ p q r 0 hr (by show (0 : Fin 4).val = (n + 1) % 4; rw [h0]; rfl) _ _ rfl rfl
    · have hmod : (n + 1) % 4 = n % 4 + 1 := by omega
      have hk : n % 4 + 1 < 4 := by omega
      have ih := acc_chain c p q n (Nat.lt_of_succ_lt hn) r (by rw [hr]; omega)
      have hterm := partial_eq V c ⟨n + 1, hn⟩ p q r ⟨n % 4 + 1, hk⟩ hr (by show n % 4 + 1 = (n + 1) % 4; omega) _ _ rfl rfl
      rw [run_congr (term V c r q) hmod _ hk, run_succ]
      by_cases h3 : (n + 1) % 4 = 3
      · rw [outsAt_last V c ⟨n + 1, hn⟩ h0 h3]
        dsimp only
        rw [accLast_eq]
        refine (k1_pay2_apply _ _ _ p q).trans ?_
        exact congrArg₂ (fun a b : EReal => a + b) ih hterm
      · rw [outsAt_mid V c ⟨n + 1, hn⟩ h0 h3]
        dsimp only
        rw [accMid_eq]
        refine (k1_pay2_apply _ _ _ p q).trans ?_
        exact congrArg₂ (fun a b : EReal => a + b) ih hterm

/-! ## The output block, and the result array -/

/-- At a position with k = 3 the output buffer's entry (p, q) is the running total of the row over all four column
    blocks, times the row's normaliser. -/
theorem out_apply (c : Dev nD) (p : Fin 1024) (q : Fin 512) (n : ℕ) (hn : n < cfg1.N) (h3 : n % 4 = 3) (r : Fin 8192)
    (hr : r.val = 1024 * (n / 4) + p.val) :
    ((outsAt V c n hn).1 (ix2 p q) : EReal) = run (term V c r q) 3 (by decide) * normArr V c r := by
  have h0 : ¬n % 4 = 0 := by omega
  have hacc := acc_chain V c p q n hn r hr
  rw [run_congr (term V c r q) h3 _ (by decide)] at hacc
  rw [outsAt_last V c ⟨n, hn⟩ h0 h3] at hacc ⊢
  dsimp only at hacc ⊢
  rw [accLast_eq] at hacc
  rw [outLast_eq]
  refine (k1_pay3_apply _ _ p q).trans ?_
  rw [hacc, norm_apply V c ⟨n, hn⟩ p r hr]
  rfl

/-- The aggregation: entry (r, q) is the running total of row r over the four column blocks times the row's normaliser. -/
def aggregated (c : Dev nD) : Vec Ideal S8192x512 .f32 :=
  fun idx => run (term V c (idx 0) (idx 1)) 3 (by decide) * normArr V c (idx 0)

/-- What a position with k = 3 writes back is its block of the aggregation. -/
theorem flushed_eq (c : Dev nD) (t : Fin cfg1.N) (hf : (cfg1.win 3).flush t = true) :
    (dat1 V c).flushed 3 t = ((cfg1.win 3).blk t).view.read (Elt Ideal) (aggregated V c) := by
  have h3 : t.val % 4 = 3 := (flush1_3 t).mp hf
  have hN : t.val < 32 := lt_of_lt_of_eq t.isLt (show cfg1.N = 32 from N_1)
  show (cfg1.win 3).cut (grid1.coords t) ((dat1 V c).after 3 t) = _
  rw [after1_3]
  have key : ∀ j : S1024x512.Idx,
      ((outsAt V c t.val t.isLt).1 j : EReal) = aggregated V c (((cfg1.win 3).blk t).view.emb j) := by
    intro j
    obtain ⟨p, q, rfl⟩ : ∃ (p : Fin 1024) (q : Fin 512), j = ix2 p q := ⟨j 0, j 1, eq_ix2 j⟩
    refine (out_apply V c p q t.val t.isLt h3 ⟨1024 * (t.val / 4) + p.val, by omega⟩ rfl).trans ?_
    show aggregated V c (ix2 ⟨1024 * (t.val / 4) + p.val, by omega⟩ q) = _
    refine congrArg (aggregated V c) ?_
    funext a; apply Fin.ext
    match a with
    | ⟨0, _⟩ => show 1024 * (t.val / 4) + p.val = win1_3.index t (0 : Fin 2) * 1024 + 1 * p.val; rw [(idx3_facts t).1]; omega
    | ⟨1, _⟩ => show q.val = win1_3.index t (1 : Fin 2) * 512 + 1 * q.val; rw [(idx3_facts t).2]; omega
  funext j
  exact key j

/-- An entry of the result array is in position t's output block iff each coordinate is in the block's range on its axis. -/
theorem mem_blk3 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v34).slice (win1_3.rect t)).set ↔ _
  rw [View.set_slice_whole, Rect.mem_set_unit]
  exact Iff.rfl

/-- Row r lies in the output block of position 4 (r / 1024) + 3, which writes back: the written blocks cover the array. -/
theorem cover3 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  have hlt : 4 * ((i 0).val / 1024) + 3 < cfg1.N := by rw [show cfg1.N = 32 from N_1]; omega
  refine ⟨⟨4 * ((i 0).val / 1024) + 3, hlt⟩, (flush1_3 _).mpr (by show (4 * ((i 0).val / 1024) + 3) % 4 = 3; omega), ?_⟩
  rw [mem_blk3]
  obtain ⟨e0, e1⟩ := idx3_facts ⟨4 * ((i 0).val / 1024) + 3, hlt⟩
  intro a
  match a with
  | ⟨0, _⟩ =>
    show win1_3.index ⟨4 * ((i 0).val / 1024) + 3, hlt⟩ 0 * 1024 ≤ (i 0).val ∧ (i 0).val < win1_3.index ⟨4 * ((i 0).val / 1024) + 3, hlt⟩ 0 * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win1_3.index ⟨4 * ((i 0).val / 1024) + 3, hlt⟩ 1 * 512 ≤ (i 1).val ∧ (i 1).val < win1_3.index ⟨4 * ((i 0).val / 1024) + 3, hlt⟩ 1 * 512 + 512
    rw [e1]
    omega

/-- So the result array ends holding the aggregation. -/
theorem final1 (c : Dev nD) : (dat1 V c).arrAt 3 cfg1.N = aggregated V c :=
  (dat1 V c).arrAt_eq_of_cover 3 (aggregated V c) (fun t hf => flushed_eq V c t hf) cover3

end Cert.KernelIdeal.R1

end
-- ==== Proof.KernelValue.lean ====
/-
  The kernel program's result array is the reference's last stage, entry by entry, at the ideal instance.
  Read off the run: the result array is the aggregation kernel's output — at (r, q) the running total over four column
  blocks of  Σ_j adj (r, j) · h (j, q),  times the row normaliser d r — where the array h the aggregation reads is the
  first kernel's output,  h (j, q) = (Σ_k x (j, k) · W (q, k) + b q) · d j,  adj is the scattered adjacency and d the
  guarded inverse square root of its row sums, both built on the host from the edge list exactly as in the reference.
  The reference's last stage is  Σ_j ((d r · adj (r, j)) · d j) · (Σ_k x (j, k) · W (q, k) + b q).  The two agree because
  d r is a non-negative real, so it moves across the sum over j, and the four column blocks are that one sum regrouped.
-/
import proofs.«173548_j19645180412416_2_alg».proof.Proof.KernelRun
import proofs.«173548_j19645180412416_2_alg».proof.Proof.RefRead
import proofs.«173548_j19645180412416_2_alg».proof.Proof.RefValue
import proofs.«173548_j19645180412416_2_alg».proof.Proof.KernelHost
import proofs.«173548_j19645180412416_2_alg».proof.Proof.Region0Value
import proofs.«173548_j19645180412416_2_alg».proof.Proof.Region1Value
import proofs.«173548_j19645180412416_2_alg».proof.Proof.SpecRun

noncomputable section

namespace Cert.KernelIdeal.KValue

open Idealize.ShloMosaic Idealize.ShloMosaic.TcCoe Idealize.SL.Sem Idealize.ShloMosaic.ValueIdx
open Cert.KernelIdeal Cert.KernelIdeal.Run Cert.KernelIdeal.HostValue Cert.GcnSpec Cert.ReferenceIdeal.RefValue

variable (m : (ℓ : Loc nD τ sig) → Buf (Elt Ideal) ℓ) (ρ : Dev nD → PrngReg)

/-- The scaled features the aggregation reads, at an entry: the affine map of the node's features times the node's
    normaliser. -/
theorem feat_entry (c : Dev nD) (n : Fin 8192) (q : Fin 512) :
    R1.featArr (V5 m ρ) c n q
      = affine (feat (m ((c.tc : Thread nD τ).loc main_arg0))) (weight (m ((c.tc : Thread nD τ).loc main_arg2))) (bias (m ((c.tc : Thread nD τ).loc main_arg3))) n q
        * normFactor (adj (m ((c.tc : Thread nD τ).loc main_arg1))) n := by
  unfold R1.featArr
  rw [V5_main_v32 m ρ c, R0.final0 (V3 m ρ) c, R0.scaledFeatures_apply, V3_main_arg0, V3_main_arg2, V3_main_arg3,
    entry_factor_first m ρ c n]
  rfl

/-- A column block's contribution, in the specification's terms. -/
theorem term_eq (c : Dev nD) (r : Fin 8192) (q : Fin 512) :
    R1.term (V5 m ρ) c r q
      = blockTerm (adj (m ((c.tc : Thread nD τ).loc main_arg1))) (feat (m ((c.tc : Thread nD τ).loc main_arg0))) (weight (m ((c.tc : Thread nD τ).loc main_arg2))) (bias (m ((c.tc : Thread nD τ).loc main_arg3))) r q := by
  funext k
  unfold R1.term blockTerm
  refine Finset.sum_congr rfl fun j _ => ?_
  have hA : R1.adjArr (V5 m ρ) c r (blockRow k j) = adj (m ((c.tc : Thread nD τ).loc main_arg1)) r (blockRow k j) := by
    unfold R1.adjArr
    exact entry_adj m ρ c r (blockRow k j)
  rw [hA, feat_entry m ρ c (blockRow k j) q]

theorem kernel_value (c : Dev nD) :
    Cert.KernelIdeal.Run.W6 m ρ c (Proc.devRef .tc main_v34)
      = Cert.ReferenceIdeal.ReadP.val_main_v41 (F := Ideal) (m ((c.tc : Thread nD τ).loc main_arg0)) (m ((c.tc : Thread nD τ).loc main_arg1))
          (m ((c.tc : Thread nD τ).loc main_arg2)) (m ((c.tc : Thread nD τ).loc main_arg3)) := by
  rw [W6_result m ρ c, R1.final1 (V5 m ρ) c, reference_eq_layer_fun]
  funext idx
  obtain ⟨r, q, rfl⟩ : ∃ (r : Fin 8192) (q : Fin 512), idx = ix2 r q := ⟨idx 0, idx 1, eq_ix2 idx⟩
  show run (R1.term (V5 m ρ) c r q) 3 (by decide) * R1.normArr (V5 m ρ) c r
    = layer (adj (m ((c.tc : Thread nD τ).loc main_arg1))) (feat (m ((c.tc : Thread nD τ).loc main_arg0)))
        (weight (m ((c.tc : Thread nD τ).loc main_arg2))) (bias (m ((c.tc : Thread nD τ).loc main_arg3))) r q
  rw [term_eq m ρ c r q]
  unfold R1.normArr
  rw [entry_factor_second m ρ c r]
  exact run_mul_eq_layer _ _ _ _ r q (by decide)

end Cert.KernelIdeal.KValue

end
-- ==== Proof.Claims.lean ====
import proofs.«173548_j19645180412416_2_alg».proof.Defs
import proofs.«173548_j19645180412416_2_alg».proof.Proof.Gen.Pre_finite_inputs
import proofs.«173548_j19645180412416_2_alg».proof.Proof.KernelRun
import proofs.«173548_j19645180412416_2_alg».proof.Proof.KernelRunK
import proofs.«173548_j19645180412416_2_alg».proof.Proof.RefRead
import proofs.«173548_j19645180412416_2_alg».proof.Proof.KernelValue

/-! # The five claims

Both programs compute one graph-convolution layer over 8192 nodes and 512 channels. From the edge list they build
the 0/1 adjacency matrix `adj` with the diagonal set, its row sums `deg` and the scaling `dinv = deg^(-1/2)`
(`0` where a row is empty). The reference then takes `(dinv · adj · dinvᵀ) @ (x @ Wᵀ + b)` in one product; the
kernel first scales the affine map of the features by `dinv` row by row, then multiplies by `adj` a quarter of
the columns at a time into an accumulator, and scales the rows of the sum by `dinv`.

* The three programs run, and leave their four arguments as they found them: the kernel's two from the run of its six
  steps (`Run.frame`), the reference's from its run with the result dropped.
* The idealized kernel is the kernel's own text read at the extended reals: nothing to preserve.
* At the extended reals the two results are one array: the kernel's run ends with its result array at the last
  step's contents (`Run.run_all`), which is the reference's last stage of the same arguments
  (`KValue.kernel_value`), and the reference's run ends at that stage of its own arguments, which agree. -/

noncomputable section

open Idealize.ShloMosaic Idealize.ShloMosaic.TcCoe Idealize.SL.Sem

namespace Cert.Proof.GcnClaims

/-- The kernel as printed runs and leaves its arguments. -/
theorem frame_p : Cert.frame_Kernel := fun m ρ _ => Cert.Kernel.Run.frame m ρ
/-- So does the kernel read at the extended reals. -/
theorem frame_pi : Cert.frame_KernelIdeal := fun m ρ _ => Cert.KernelIdeal.Run.frame m ρ
/-- The reference runs, to its last stage and its arguments unchanged: the result is dropped here. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals. -/
theorem preserves : Cert.preserves_Kernel_KernelIdeal := trivial

/-- From memories that agree on the four arguments both programs end with one and the same result array: on each
    core the kernel's, `W6` at the result's array, is the reference's last stage of the arguments. -/
theorem algebraic : Cert.algebraic_KernelIdeal_ReferenceIdeal := by
  intro m ρ m' ρ' _ hagree
  refine ⟨fun c => Cert.KernelIdeal.Run.W6 m ρ c (Proc.devRef .tc Cert.KernelIdeal.main_v34), ?_, ?_⟩
  · exact (θ_run Cert.KernelIdeal.defs _ _).mono (fun r h c =>
      ⟨h c _ (Cert.KernelIdeal.Run.mem_uc Cert.KernelIdeal.main_v34 (by decide)),
       (h c _ (Cert.KernelIdeal.Run.mem_uc Cert.KernelIdeal.main_arg0 (by decide))).trans (Cert.KernelIdeal.Run.W6_main_arg0 m ρ c),
       (h c _ (Cert.KernelIdeal.Run.mem_uc Cert.KernelIdeal.main_arg1 (by decide))).trans (Cert.KernelIdeal.Run.W6_main_arg1 m ρ c),
       (h c _ (Cert.KernelIdeal.Run.mem_uc Cert.KernelIdeal.main_arg2 (by decide))).trans (Cert.KernelIdeal.Run.W6_main_arg2 m ρ c),
       (h c _ (Cert.KernelIdeal.Run.mem_uc Cert.KernelIdeal.main_arg3 (by decide))).trans (Cert.KernelIdeal.Run.W6_main_arg3 m ρ c)⟩)
      (Cert.KernelIdeal.Run.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v41_eq, (hagree c).1, (hagree c).2.1, (hagree c).2.2.1, (hagree c).2.2.2]
    exact (Cert.KernelIdeal.KValue.kernel_value m ρ c).symm

end Cert.Proof.GcnClaims

end
-- ==== Proof.lean ====
/- One graph-convolution layer over 8192 nodes and 512 channels, two ways. Both programs scatter the edge list (with a
   loop at every node) into the 0/1 adjacency matrix `adj`, take its row sums `deg` and the row normaliser
   `dinv = deg^(-1/2)` (`0` for an empty row). The reference forms `(dinv · adj · dinvᵀ) @ (x @ Wᵀ + b)` as one
   product; the kernel scales the rows of `x @ Wᵀ + b` by `dinv` first, sums `adj` against them over four blocks of
   2048 columns, and scales the rows of the sum by `dinv`. At the extended reals the two agree entry by entry: the
   row normaliser is a non-negative real, so it moves across the sum over neighbours, and the kernel's four column
   blocks are that one sum regrouped; the rest is commutativity and associativity of the product.
   The kernel's three frames and the run of its six steps are in Proof/KernelRun.lean (and its word-level copy), the
   two results' equality in Proof/KernelValue.lean, the five claims in Proof/Claims.lean. -/
import proofs.«173548_j19645180412416_2_alg».proof.Defs
import proofs.«173548_j19645180412416_2_alg».proof.Proof.Gen.Kernel
import proofs.«173548_j19645180412416_2_alg».proof.Proof.Gen.Kernel.Skeleton
import proofs.«173548_j19645180412416_2_alg».proof.Proof.Gen.Kernel.Launch
import proofs.«173548_j19645180412416_2_alg».proof.Proof.Gen.Kernel.Regions
import proofs.«173548_j19645180412416_2_alg».proof.Proof.Gen.Kernel.Points
import proofs.«173548_j19645180412416_2_alg».proof.Proof.Gen.KernelIdeal
import proofs.«173548_j19645180412416_2_alg».proof.Proof.Gen.KernelIdeal.Skeleton
import proofs.«173548_j19645180412416_2_alg».proof.Proof.Gen.KernelIdeal.Launch
import proofs.«173548_j19645180412416_2_alg».proof.Proof.Gen.KernelIdeal.Regions
import proofs.«173548_j19645180412416_2_alg».proof.Proof.Gen.KernelIdeal.Points
import proofs.«173548_j19645180412416_2_alg».proof.Proof.Gen.ReferenceIdeal
import proofs.«173548_j19645180412416_2_alg».proof.Proof.Gen.Pre_finite_inputs
import proofs.«173548_j19645180412416_2_alg».proof.Proof.Claims
import Idealize.ShloMosaic.Adequacy
import Idealize.ShloMosaic.Init

noncomputable section

namespace Cert.Proof

open Idealize.ShloMosaic Idealize.SL.Sem Cert.Kernel

/-- The programs' stated side conditions hold (the witnesses first), and under them the five claims. -/
theorem claim : Cert.Claim := ⟨Cert.Kernel.Gen.facts, Cert.KernelIdeal.Gen.facts, Cert.ReferenceIdeal.Gen.facts, Cert.Pre_finite_inputs.Gen.facts,
  GcnClaims.frame_p, GcnClaims.frame_pi, GcnClaims.frame_ri, GcnClaims.preserves, GcnClaims.algebraic⟩

end Cert.Proof

end
